-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1024x3072 : Shape := ⟨2, ![1024, 3072]⟩
abbrev S3072 : Shape := ⟨1, ![3072]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn_part2 {F : FTy → Type} [FloatOps F] (main_arg7 : FVec F S3072 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  main_v38

def fn_part1 {F : FTy → Type} [FloatOps F] (main_arg4 : FVec F S1024x3072 .f32) (main_arg5 : FVec F S1024x3072 .f32) (main_arg6 : FVec F S3072 .f32) (main_arg7 : FVec F S3072 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1024x3072 .f32 := Host.absf main_arg4
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S1024x3072 .f32 := Host.absf main_arg5
  let main_cst_8 : FVec F S_ .f32 := constant S_ .f32 0x7F800000#32
  let main_v25 : FVec F S1024x3072 .f32 := broadcastInDim S1024x3072 ![] bcast_S_S1024x3072 main_cst_8
  let main_v26 : IVec S1024x3072 1 := cmpf .olt main_v24 main_v25
  let main_c_9 : IVec S_ 1 := constantI S_ 1 1#1
  let main_v27 : IVec S_ 1 := (fun x v => Host.reduce IntOp.andi x v reducesTo_S1024x3072_S_d0_1 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S1024x3072 .f32) (main_arg3 : FVec F S1024x3072 .f32) (main_arg4 : FVec F S1024x3072 .f32) (main_arg5 : FVec F S1024x3072 .f32) (main_arg6 : FVec F S3072 .f32) (main_arg7 : FVec F S3072 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_arg6 main_arg7 main_v13 main_v16
-- ==== Kernel.lean ====
abbrev S4096x2048 : Shape := ⟨2, ![4096, 2048]⟩
abbrev S1024x3072 : Shape := ⟨2, ![1024, 3072]⟩
abbrev S3072 : Shape := ⟨1, ![3072]⟩
abbrev S1x3072 : Shape := ⟨2, ![1, 3072]⟩
abbrev S128x2048 : Shape := ⟨2, ![128, 2048]⟩
abbrev S128x1024 : Shape := ⟨2, ![128, 1024]⟩
abbrev S1024x1024 : Shape := ⟨2, ![1024, 1024]⟩
abbrev S1x1024 : Shape := ⟨2, ![1, 1024]⟩

abbrev nBuf : Space → Nat
  | .hbm => 15
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1024x3072, .f32⟩
  | .hbm, ⟨3, _⟩ => ⟨S1024x3072, .f32⟩
  | .hbm, ⟨4, _⟩ => ⟨S1024x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S1024x3072, .bf16⟩
  | .hbm, ⟨9, _⟩ => ⟨S1024x3072, .bf16⟩
  | .hbm, ⟨10, _⟩ => ⟨S1024x3072, .bf16⟩
  | .hbm, ⟨11, _⟩ => ⟨S1024x3072, .bf16⟩
  | .hbm, ⟨12, _⟩ => ⟨S1x3072, .f32⟩
  | .hbm, ⟨13, _⟩ => ⟨S1x3072, .f32⟩
  | .hbm, ⟨14, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1024x3072, .bf16⟩
  | .local _ .vmem, ⟨5, _⟩ => ⟨S1024x3072, .bf16⟩
  | .local _ .vmem, ⟨6, _⟩ => ⟨S1024x3072, .bf16⟩
  | .local _ .vmem, ⟨7, _⟩ => ⟨S1024x3072, .bf16⟩
  | .local _ .vmem, ⟨8, _⟩ => ⟨S1x3072, .f32⟩
  | .local _ .vmem, ⟨9, _⟩ => ⟨S1x3072, .f32⟩
  | .local _ .vmem, ⟨10, _⟩ => ⟨S128x2048, .f32⟩
  | .local _ .vmem, ⟨11, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S3072_S1x3072 : S3072.ShapeCasts S1x3072
  inb_S128x2048_S128x1024_0_0 : ∀ a, (![0, 0] : Fin 2 → Nat) a + S128x1024.size a ≤ S128x2048.size a
  h_S128x1024 : 0 < S128x1024.numel
  inb_S128x2048_S128x1024_0_1024 : ∀ a, (![0, 1024] : Fin 2 → Nat) a + S128x1024.size a ≤ S128x2048.size a
  inb_S1024x3072_S1024x1024_0_0 : ∀ a, (![0, 0] : Fin 2 → Nat) a + S1024x1024.size a ≤ S1024x3072.size a
  h_S1024x1024 : 0 < S1024x1024.numel
  shapeCasts_S1024x1024_S1024x1024 : S1024x1024.ShapeCasts S1024x1024
  inb_S1024x3072_S1024x1024_0_1024 : ∀ a, (![0, 1024] : Fin 2 → Nat) a + S1024x1024.size a ≤ S1024x3072.size a
  inb_S1024x3072_S1024x1024_0_2048 : ∀ a, (![0, 2048] : Fin 2 → Nat) a + S1024x1024.size a ≤ S1024x3072.size a
  inb_S1x3072_S1x1024_0_0 : ∀ a, (![0, 0] : Fin 2 → Nat) a + S1x1024.size a ≤ S1x3072.size a
  h_S1x1024 : 0 < S1x1024.numel
  shapeCasts_S1x1024_S1x1024 : S1x1024.ShapeCasts S1x1024
  inb_S1x3072_S1x1024_0_1024 : ∀ a, (![0, 1024] : Fin 2 → Nat) a + S1x1024.size a ≤ S1x3072.size a
  inb_S1x3072_S1x1024_0_2048 : ∀ a, (![0, 2048] : Fin 2 → Nat) a + S1x1024.size a ≤ S1x3072.size a
  broadcasts_S1x1024_S128x1024 : S1x1024.Broadcasts S128x1024
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x3072.size a ≤ S1024x3072.size a
  hwx0_5 : ∀ i : grid0.Coords, EltTy.bits .bf16 = 32 ∨ (Rect.block (s := S1024x3072) S1024x3072.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072.size a ≤ S1x3072.size a
  hwx0_6 : ∀ i : grid0.Coords, EltTy.bits .f32 = 32 ∨ (Rect.block (s := S1x3072) S1x3072.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3072.size a ≤ S1x3072.size a
  hwx0_7 : ∀ i : grid0.Coords, EltTy.bits .f32 = 32 ∨ (Rect.block (s := S1x3072) S1x3072.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S4096x2048.size a
  hwx0_8 : ∀ i : grid0.Coords, EltTy.bits .f32 = 32 ∨ (Rect.block (s := S4096x2048) S128x2048.size (cc0_transform_8 i) (hinb0_8 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x3072.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S128x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 107
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1024x3072, .f32⟩
  | .hbm, ⟨3, _⟩ => ⟨S1024x3072, .f32⟩
  | .hbm, ⟨4, _⟩ => ⟨S1024x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024x1024, .f32⟩
  | .hbm, ⟨27, _⟩ => ⟨S1024x2048, .f32⟩
  | .hbm, ⟨28, _⟩ => ⟨S1024x2048, .f32⟩
  | .hbm, ⟨29, _⟩ => ⟨S2048x2048, .f32⟩
  | .hbm, ⟨30, _⟩ => ⟨S4096x2048, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S1024x1024, .f32⟩
  | .hbm, ⟨36, _⟩ => ⟨S1024x2048, .f32⟩
  | .hbm, ⟨37, _⟩ => ⟨S1024x2048, .f32⟩
  | .hbm, ⟨38, _⟩ => ⟨S2048x2048, .f32⟩
  | .hbm, ⟨39, _⟩ => ⟨S4096x2048, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S1024x1024, .f32⟩
  | .hbm, ⟨45, _⟩ => ⟨S1024x2048, .f32⟩
  | .hbm, ⟨46, _⟩ => ⟨S1024x2048, .f32⟩
  | .hbm, ⟨47, _⟩ => ⟨S2048x2048, .f32⟩
  | .hbm, ⟨48, _⟩ => ⟨S4096x2048, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S1024x1024, .f32⟩
  | .hbm, ⟨54, _⟩ => ⟨S1024x2048, .f32⟩
  | .hbm, ⟨55, _⟩ => ⟨S1024x2048, .f32⟩
  | .hbm, ⟨56, _⟩ => ⟨S2048x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096x2048, .f32⟩
  | .hbm, ⟨64, _⟩ => ⟨S4096x2048, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096x2048, .f32⟩
  | .hbm, ⟨69, _⟩ => ⟨S4096x2048, .f32⟩
  | .hbm, ⟨70, _⟩ => ⟨S_, .f32⟩
  | .hbm, ⟨71, _⟩ => ⟨S4096x2048, .f32⟩
  | .hbm, ⟨72, _⟩ => ⟨S4096x2048, .f32⟩
  | .hbm, ⟨73, _⟩ => ⟨S1024x1024, .f32⟩
  | .hbm, ⟨74, _⟩ => ⟨S1024x2048, .f32⟩
  | .hbm, ⟨75, _⟩ => ⟨S1024x2048, .f32⟩
  | .hbm, ⟨76, _⟩ => ⟨S2048x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S4096x2048, .f32⟩
  | .hbm, ⟨89, _⟩ => ⟨S4096x2048, .f32⟩
  | .hbm, ⟨90, _⟩ => ⟨S_, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S1024x1024, .f32⟩
  | .hbm, ⟨95, _⟩ => ⟨S1024x2048, .f32⟩
  | .hbm, ⟨96, _⟩ => ⟨S1024x2048, .f32⟩
  | .hbm, ⟨97, _⟩ => ⟨S2048x2048, .f32⟩
  | .hbm, ⟨98, _⟩ => ⟨S4096x2048, .f32⟩
  | .hbm, ⟨99, _⟩ => ⟨S4096x2048, .f32⟩
  | .hbm, ⟨100, _⟩ => ⟨S4096x2048, .f32⟩
  | .hbm, ⟨101, _⟩ => ⟨S4096x2048, .f32⟩
  | .hbm, ⟨102, _⟩ => ⟨S_, .f32⟩
  | .hbm, ⟨103, _⟩ => ⟨S4096x2048, .f32⟩
  | .hbm, ⟨104, _⟩ => ⟨S4096x2048, .f32⟩
  | .hbm, ⟨105, _⟩ => ⟨S4096x2048, .f32⟩
  | .hbm, ⟨106, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst : Ref sig .tc := ⟨.hbm, 59, rfl⟩
abbrev main_v51 : Ref sig .tc := ⟨.hbm, 60, rfl⟩
abbrev main_v52 : Ref sig .tc := ⟨.hbm, 61, rfl⟩
abbrev main_cst_0 : Ref sig .tc := ⟨.hbm, 62, rfl⟩
abbrev main_v53 : Ref sig .tc := ⟨.hbm, 63, rfl⟩
abbrev main_v54 : Ref sig .tc := ⟨.hbm, 64, rfl⟩
abbrev main_cst_1 : Ref sig .tc := ⟨.hbm, 65, rfl⟩
abbrev main_cst_2 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_3 : Ref sig .tc := ⟨.hbm, 79, rfl⟩
abbrev main_v62 : Ref sig .tc := ⟨.hbm, 80, rfl⟩
abbrev main_v63 : Ref sig .tc := ⟨.hbm, 81, rfl⟩
abbrev main_cst_4 : Ref sig .tc := ⟨.hbm, 82, rfl⟩
abbrev main_v64 : Ref sig .tc := ⟨.hbm, 83, rfl⟩
abbrev main_v65 : Ref sig .tc := ⟨.hbm, 84, rfl⟩
abbrev main_cst_5 : Ref sig .tc := ⟨.hbm, 85, rfl⟩
abbrev main_cst_6 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_7 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  slices_S1024x3072_S1024x1024_0_0 : S1024x3072.Slices ![0, 0] S1024x1024
  slices_S1024x3072_S1024x1024_0_1024 : S1024x3072.Slices ![0, 1024] S1024x1024
  slices_S1024x3072_S1024x1024_0_2048 : S1024x3072.Slices ![0, 2048] S1024x1024
  slices_S3072_S1024_0 : S3072.Slices ![0] S1024
  slices_S3072_S1024_1024 : S3072.Slices ![1024] S1024
  slices_S3072_S1024_2048 : S3072.Slices ![2048] S1024
  concatenates_S1024x1024_S1024x1024_S1024x2048_d1 : Shape.Concatenates [S1024x1024, S1024x1024] S1024x2048 1
  concatenates_S1024x2048_S1024x2048_S2048x2048_d0 : Shape.Concatenates [S1024x2048, S1024x2048] S2048x2048 0
  concatenates_S1024_S1024_S2048_d0 : Shape.Concatenates [S1024, S1024] S2048 0
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Spec.lean ====
/-
  The complex-valued GRU cell, as ONE function of the eight argument arrays, index by index.

  A row of `inputs` is a complex vector stored as its real half (columns 0..1023) followed by its imaginary half
  (columns 1024..2047); so is a row of `h_tm1`. Each gate has a complex weight matrix `R + iI` (a column slice of
  the real and of the imaginary kernel) and the product used throughout is
      (a_r, a_i) ↦ (a_r·R + a_i·I , a_i·R − a_r·I).
  Two arrangements of the same row computation are stated here over plain functions of indices:
    * BY HALVES (`outR`, `outI`): every contraction runs over 1024 terms, the real and the imaginary half of each
      gate are computed separately;
    * JOINED (`refOut`): every contraction runs over the 2048 joined columns against the block matrix
      `[[R, −I], [I, R]]` (`cat`), the biases joined the same way (`join`).
  The gate nonlinearity `σ`, the candidate nonlinearity `τ` and the constant `one` are parameters of both: the two
  arrangements apply them to the same arguments. `G` is the result array: at column `c` the real half's entry when
  `c < 1024`, the imaginary half's entry at `c − 1024` otherwise, with `σ` the hard sigmoid
  `min 1 (max 0 (0.2·x + 0.5))` and `τ` the hyperbolic tangent.
-/
import Idealize.ShloMosaic.PureOps.Ideal
import Idealize.ShloMosaic.Lib.ValueIdx

noncomputable section

open scoped BigOperators

namespace Cert.Cgru

open Idealize.ShloMosaic Idealize.ShloMosaic.ValueIdx

/-- An extended real that is a real number. -/
def IsReal (x : EReal) : Prop := ∃ r : ℝ, x = (r : EReal)

/-! ## Index maps -/

/-- Column `k` of the real half. -/
def lo (k : Fin 1024) : Fin 2048 := ⟨k.val, by have := k.isLt; omega⟩
/-- Column `k` of the imaginary half. -/
def hi (k : Fin 1024) : Fin 2048 := ⟨1024 + k.val, by have := k.isLt; omega⟩
/-- Column `j` of the update gate's slice of a kernel. -/
def col0 (j : Fin 1024) : Fin 3072 := ⟨j.val, by have := j.isLt; omega⟩
/-- Column `j` of the reset gate's slice of a kernel. -/
def col1 (j : Fin 1024) : Fin 3072 := ⟨1024 + j.val, by have := j.isLt; omega⟩
/-- Column `j` of the candidate's slice of a kernel. -/
def col2 (j : Fin 1024) : Fin 3072 := ⟨2048 + j.val, by have := j.isLt; omega⟩

@[simp] theorem lo_val (k : Fin 1024) : (lo k).val = k.val := rfl
@[simp] theorem hi_val (k : Fin 1024) : (hi k).val = 1024 + k.val := rfl
@[simp] theorem col0_val (k : Fin 1024) : (col0 k).val = k.val := rfl
@[simp] theorem col1_val (k : Fin 1024) : (col1 k).val = 1024 + k.val := rfl
@[simp] theorem col2_val (k : Fin 1024) : (col2 k).val = 2048 + k.val := rfl

/-- Every joined column is a column of the real half or of the imaginary half. -/
theorem lo_or_hi (c : Fin 2048) : (∃ j, c = lo j) ∨ (∃ j, c = hi j) := by
  by_cases h : c.val < 1024
  · exact Or.inl ⟨⟨c.val, h⟩, Fin.ext rfl⟩
  · exact Or.inr ⟨⟨c.val - 1024, by have := c.isLt; omega⟩, Fin.ext (by show c.val = 1024 + (c.val - 1024); omega)⟩

/-! ## The row computation -/

/-- Half a row: 1024 entries. -/
abbrev Row := Fin 1024 → EReal
/-- A joined row: 2048 entries. -/
abbrev Row2 := Fin 2048 → EReal
/-- One gate's real or imaginary weight matrix. -/
abbrev Mat := Fin 1024 → Fin 1024 → EReal

/-- The twelve gate matrices and the six bias halves. -/
structure Wts where
  Rz : Mat
  Rr : Mat
  Rh : Mat
  Iz : Mat
  Ir : Mat
  Ih : Mat
  RRz : Mat
  RRr : Mat
  RRh : Mat
  IRz : Mat
  IRr : Mat
  IRh : Mat
  rbz : Row
  rbr : Row
  rbh : Row
  ibz : Row
  ibr : Row
  ibh : Row

/-- Row by column, 1024 terms. -/
def dot (a : Row) (W : Mat) (j : Fin 1024) : EReal := ∑ k, a k * W k j
/-- The real half of the complex product: `a_r·W_r + a_i·W_i`. -/
def cre (ar ai : Row) (Wr Wi : Mat) (j : Fin 1024) : EReal := dot ar Wr j + dot ai Wi j
/-- The imaginary half of the complex product: `a_i·W_r − a_r·W_i`. -/
def cim (ar ai : Row) (Wr Wi : Mat) (j : Fin 1024) : EReal := dot ai Wr j - dot ar Wi j

section Halves

variable (σ τ : EReal → EReal) (one : EReal) (w : Wts) (xr xi hr hi : Row)

/-- Update gate, real half. -/
def zR (j : Fin 1024) : EReal := σ ((cre xr xi w.Rz w.Iz j + w.rbz j) + cre hr hi w.RRz w.IRz j)
/-- Update gate, imaginary half. -/
def zI (j : Fin 1024) : EReal := σ ((cim xr xi w.Rz w.Iz j + w.ibz j) + cim hr hi w.RRz w.IRz j)
/-- Reset gate, real half. -/
def rR (j : Fin 1024) : EReal := σ ((cre xr xi w.Rr w.Ir j + w.rbr j) + cre hr hi w.RRr w.IRr j)
/-- Reset gate, imaginary half. -/
def rI (j : Fin 1024) : EReal := σ ((cim xr xi w.Rr w.Ir j + w.ibr j) + cim hr hi w.RRr w.IRr j)
/-- The reset state, real half. -/
def pR (k : Fin 1024) : EReal := rR σ w xr xi hr hi k * hr k
/-- The reset state, imaginary half. -/
def pI (k : Fin 1024) : EReal := rI σ w xr xi hr hi k * hi k
/-- Candidate state, real half. -/
def hhR (j : Fin 1024) : EReal :=
  τ ((cre xr xi w.Rh w.Ih j + w.rbh j) + cre (pR σ w xr xi hr hi) (pI σ w xr xi hr hi) w.RRh w.IRh j)
/-- Candidate state, imaginary half. -/
def hhI (j : Fin 1024) : EReal :=
  τ ((cim xr xi w.Rh w.Ih j + w.ibh j) + cim (pR σ w xr xi hr hi) (pI σ w xr xi hr hi) w.RRh w.IRh j)
/-- New state, real half: `z·h + (1 − z)·hh`. -/
def outR (j : Fin 1024) : EReal :=
  zR σ w xr xi hr hi j * hr j + (one - zR σ w xr xi hr hi j) * hhR σ τ w xr xi hr hi j
/-- New state, imaginary half. -/
def outI (j : Fin 1024) : EReal :=
  zI σ w xr xi hr hi j * hi j + (one - zI σ w xr xi hr hi j) * hhI σ τ w xr xi hr hi j

end Halves

/-- The block matrix `[[R, −I], [I, R]]` at row `k`, column `c`. -/
def cat (R I : Mat) (k c : Fin 2048) : EReal :=
  if hk : k.val < 1024 then
    if hc : c.val < 1024 then R ⟨k.val, hk⟩ ⟨c.val, hc⟩
    else -(I ⟨k.val, hk⟩ ⟨c.val - 1024, by have := c.isLt; omega⟩)
  else
    if hc : c.val < 1024 then I ⟨k.val - 1024, by have := k.isLt; omega⟩ ⟨c.val, hc⟩
    else R ⟨k.val - 1024, by have := k.isLt; omega⟩ ⟨c.val - 1024, by have := c.isLt; omega⟩

/-- Two halves joined: `a` on the first 1024 columns, `b` on the last 1024. -/
def join (a b : Row) (c : Fin 2048) : EReal :=
  if hc : c.val < 1024 then a ⟨c.val, hc⟩ else b ⟨c.val - 1024, by have := c.isLt; omega⟩

/-- Row by column, 2048 terms. -/
def dot2 (a : Row2) (W : Fin 2048 → Fin 2048 → EReal) (c : Fin 2048) : EReal := ∑ k, a k * W k c

section Joined

variable (σ τ : EReal → EReal) (one : EReal) (w : Wts) (x h : Row2)

/-- Update gate over the joined columns. -/
def refZ (c : Fin 2048) : EReal :=
  σ ((dot2 x (cat w.Rz w.Iz) c + join w.rbz w.ibz c) + dot2 h (cat w.RRz w.IRz) c)
/-- Reset gate over the joined columns. -/
def refR (c : Fin 2048) : EReal :=
  σ ((dot2 x (cat w.Rr w.Ir) c + join w.rbr w.ibr c) + dot2 h (cat w.RRr w.IRr) c)
/-- Candidate state over the joined columns. -/
def refHH (c : Fin 2048) : EReal :=
  τ ((dot2 x (cat w.Rh w.Ih) c + join w.rbh w.ibh c)
    + dot2 (fun k => refR σ w x h k * h k) (cat w.RRh w.IRh) c)
/-- New state over the joined columns. -/
def refOut (c : Fin 2048) : EReal :=
  refZ σ w x h c * h c + (one - refZ σ w x h c) * refHH σ τ w x h c

end Joined

/-! ## The arrays -/

/-- The f32 literals of the two programs, as extended reals. -/
def cOne : EReal := Ideal.ofBits .f32 0x3F800000#32
def cZero : EReal := Ideal.ofBits .f32 0x00000000#32
def cFifth : EReal := Ideal.ofBits .f32 0x3E4CCCCD#32
def cHalf : EReal := Ideal.ofBits .f32 0x3F000000#32

/-- The hard sigmoid `min 1 (max 0 (0.2·x + 0.5))`. -/
def hsig (x : EReal) : EReal := min cOne (max cZero (cFifth * x + cHalf))

/-- The gate matrices and bias halves as slices of the four kernels and the two biases. -/
def wts (A2 A3 A4 A5 : FVec Ideal (⟨2, ![1024, 3072]⟩ : Shape) .f32) (B6 B7 : FVec Ideal (⟨1, ![3072]⟩ : Shape) .f32) : Wts where
  Rz := fun k j => A2 (ix2 k (col0 j))
  Rr := fun k j => A2 (ix2 k (col1 j))
  Rh := fun k j => A2 (ix2 k (col2 j))
  Iz := fun k j => A3 (ix2 k (col0 j))
  Ir := fun k j => A3 (ix2 k (col1 j))
  Ih := fun k j => A3 (ix2 k (col2 j))
  RRz := fun k j => A4 (ix2 k (col0 j))
  RRr := fun k j => A4 (ix2 k (col1 j))
  RRh := fun k j => A4 (ix2 k (col2 j))
  IRz := fun k j => A5 (ix2 k (col0 j))
  IRr := fun k j => A5 (ix2 k (col1 j))
  IRh := fun k j => A5 (ix2 k (col2 j))
  rbz := fun j => B6 (ix1 (col0 j))
  rbr := fun j => B6 (ix1 (col1 j))
  rbh := fun j => B6 (ix1 (col2 j))
  ibz := fun j => B7 (ix1 (col0 j))
  ibr := fun j => B7 (ix1 (col1 j))
  ibh := fun j => B7 (ix1 (col2 j))

/-- Row `b` of a [4096, 2048] array, joined. -/
def row (X : FVec Ideal (⟨2, ![4096, 2048]⟩ : Shape) .f32) (b : Fin 4096) : Row2 := fun k => X (ix2 b k)
/-- Its real half. -/
def rowLo (X : FVec Ideal (⟨2, ![4096, 2048]⟩ : Shape) .f32) (b : Fin 4096) : Row := fun k => X (ix2 b (lo k))
/-- Its imaginary half. -/
def rowHi (X : FVec Ideal (⟨2, ![4096, 2048]⟩ : Shape) .f32) (b : Fin 4096) : Row := fun k => X (ix2 b (hi k))

/-- The new state, one entry: row `b`, column `c`. -/
def Gat (X H : FVec Ideal (⟨2, ![4096, 2048]⟩ : Shape) .f32) (A2 A3 A4 A5 : FVec Ideal (⟨2, ![1024, 3072]⟩ : Shape) .f32)
    (B6 B7 : FVec Ideal (⟨1, ![3072]⟩ : Shape) .f32) (b : Fin 4096) (c : Fin 2048) : EReal :=
  if hc : c.val < 1024 then
    outR hsig Ideal.tanh cOne (wts A2 A3 A4 A5 B6 B7) (rowLo X b) (rowHi X b) (rowLo H b) (rowHi H b) ⟨c.val, hc⟩
  else
    outI hsig Ideal.tanh cOne (wts A2 A3 A4 A5 B6 B7) (rowLo X b) (rowHi X b) (rowLo H b) (rowHi H b)
      ⟨c.val - 1024, by have := c.isLt; omega⟩

/-- The new state as an array. -/
def G (X H : FVec Ideal (⟨2, ![4096, 2048]⟩ : Shape) .f32) (A2 A3 A4 A5 : FVec Ideal (⟨2, ![1024, 3072]⟩ : Shape) .f32)
    (B6 B7 : FVec Ideal (⟨1, ![3072]⟩ : Shape) .f32) : FVec Ideal (⟨2, ![4096, 2048]⟩ : Shape) .f32 :=
  fun i => Gat X H A2 A3 A4 A5 B6 B7 (i 0) (i 1)

theorem Gat_lo (X H : FVec Ideal (⟨2, ![4096, 2048]⟩ : Shape) .f32) (A2 A3 A4 A5 : FVec Ideal (⟨2, ![1024, 3072]⟩ : Shape) .f32)
    (B6 B7 : FVec Ideal (⟨1, ![3072]⟩ : Shape) .f32) (b : Fin 4096) (j : Fin 1024) :
    Gat X H A2 A3 A4 A5 B6 B7 b (lo j)
      = outR hsig Ideal.tanh cOne (wts A2 A3 A4 A5 B6 B7) (rowLo X b) (rowHi X b) (rowLo H b) (rowHi H b) j := by
  unfold Gat
  rw [dif_pos (show (lo j).val < 1024 from j.isLt)]
  rfl

theorem Gat_hi (X H : FVec Ideal (⟨2, ![4096, 2048]⟩ : Shape) .f32) (A2 A3 A4 A5 : FVec Ideal (⟨2, ![1024, 3072]⟩ : Shape) .f32)
    (B6 B7 : FVec Ideal (⟨1, ![3072]⟩ : Shape) .f32) (b : Fin 4096) (j : Fin 1024) :
    Gat X H A2 A3 A4 A5 B6 B7 b (hi j)
      = outI hsig Ideal.tanh cOne (wts A2 A3 A4 A5 B6 B7) (rowLo X b) (rowHi X b) (rowLo H b) (rowHi H b) j := by
  unfold Gat
  rw [dif_neg (show ¬ (hi j).val < 1024 by show ¬ 1024 + j.val < 1024; omega)]
  refine congrArg _ (Fin.ext ?_)
  show 1024 + j.val - 1024 = j.val
  omega

end Cert.Cgru

end
-- ==== Proof.Bridge.lean ====
/-
  The two arrangements of the row computation agree on real data.

  A contraction over the 2048 joined columns splits into the contraction over the real half plus the one over the
  imaginary half (a finite sum over a disjoint union; no hypothesis). Against the block matrix `[[R, −I], [I, R]]`:
    * at a column of the real half the two pieces are `a_r·R` and `a_i·I`: the real half of the complex product;
    * at a column of the imaginary half they are `a_r·(−I)` and `a_i·R`; here `∑ a_r·(−I) = −∑ a_r·I` is needed,
      and negation commutes with a finite sum of extended reals only when no two terms are opposite infinities — so
      this step asks that `a_r` and `I` be real, and then the sum is `a_i·R − a_r·I`, the imaginary half.
  The gate nonlinearity is only required to return real numbers (the hard sigmoid lies between 0 and 1), so that the
  reset state `r·h` is real again and the same step applies to the candidate's recurrent product.
-/
import proofs.«104676_j23922967838776_2_alg».proof.Proof.Spec

noncomputable section

open scoped BigOperators

namespace Cert.Cgru

open Idealize.ShloMosaic Idealize.ShloMosaic.ValueIdx

/-! ## Real extended reals -/

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- An extended real between two reals is real. -/
theorem IsReal.of_bounds {x : EReal} {a b : ℝ} (ha : (a : EReal) ≤ x) (hb : x ≤ (b : EReal)) : IsReal x :=
  ⟨x.toReal, (EReal.coe_toReal (ne_of_lt (lt_of_le_of_lt hb (EReal.coe_lt_top b)))
    (ne_of_gt (lt_of_lt_of_le (EReal.bot_lt_coe a) ha))).symm⟩

/-- A finite sum of reals read as extended reals is the sum of the readings. -/
theorem coe_sum {ι : Type*} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- Negation commutes with a finite sum of real terms. -/
theorem sum_neg_real {ι : Type*} [Fintype ι] (f : ι → EReal) (hf : ∀ k, IsReal (f k)) :
    ∑ k, -(f k) = -(∑ k, f k) := by
  choose g hg using hf
  simp only [hg, ← EReal.coe_neg, ← coe_sum, Finset.sum_neg_distrib]

/-! ## The literals and the hard sigmoid -/

theorem cOne_eq : cOne = 1 := by
  unfold cOne
  simp [Ideal.ofBits, Ideal.ieee, -EReal.coe_mul]; norm_num

theorem cZero_eq : cZero = 0 := by
  unfold cZero
  simp [Ideal.ofBits, Ideal.ieee]

/-- The hard sigmoid lies between 0 and 1, whatever its argument: it is real. -/
theorem hsig_real (y : EReal) : IsReal (hsig y) := by
  unfold hsig
  rw [cOne_eq, cZero_eq]
  refine IsReal.of_bounds (a := 0) (b := 1) ?_ ?_
  · exact le_min (by exact_mod_cast zero_le_one) (by exact_mod_cast le_max_left _ _)
  · exact_mod_cast min_le_left _ _

/-! ## The joined columns -/

theorem lo_lt (k : Fin 1024) : (lo k).val < 1024 := k.isLt
theorem hi_not_lt (k : Fin 1024) : ¬ (hi k).val < 1024 := by
  show ¬ 1024 + k.val < 1024
  omega
theorem hi_sub (k : Fin 1024) (h : (hi k).val - 1024 < 1024) : (⟨(hi k).val - 1024, h⟩ : Fin 1024) = k :=
  Fin.ext (by show 1024 + k.val - 1024 = k.val; omega)

/-- A sum over the joined columns is the sum over the real half plus the sum over the imaginary half. -/
theorem sum_split (f : Fin 2048 → EReal) : ∑ k, f k = ∑ k : Fin 1024, f (lo k) + ∑ k : Fin 1024, f (hi k) :=
  Fin.sum_univ_add (a := 1024) (b := 1024) f

theorem join_lo (a b : Row) (j : Fin 1024) : join a b (lo j) = a j := by
  unfold join
  rw [dif_pos (lo_lt j)]
  rfl

theorem join_hi (a b : Row) (j : Fin 1024) : join a b (hi j) = b j := by
  unfold join
  rw [dif_neg (hi_not_lt j), hi_sub]

theorem cat_lo_lo (R I : Mat) (k c : Fin 1024) : cat R I (lo k) (lo c) = R k c := by
  unfold cat
  rw [dif_pos (lo_lt k), dif_pos (lo_lt c)]
  rfl

theorem cat_lo_hi (R I : Mat) (k c : Fin 1024) : cat R I (lo k) (hi c) = -(I k c) := by
  unfold cat
  rw [dif_pos (lo_lt k), dif_neg (hi_not_lt c), hi_sub]
  rfl

theorem cat_hi_lo (R I : Mat) (k c : Fin 1024) : cat R I (hi k) (lo c) = I k c := by
  unfold cat
  rw [dif_neg (hi_not_lt k), dif_pos (lo_lt c), hi_sub]
  rfl

theorem cat_hi_hi (R I : Mat) (k c : Fin 1024) : cat R I (hi k) (hi c) = R k c := by
  unfold cat
  rw [dif_neg (hi_not_lt k), dif_neg (hi_not_lt c), hi_sub, hi_sub]

/-- A joined row is its two halves joined. -/
theorem join_halves (x : Row2) : x = join (fun k => x (lo k)) (fun k => x (hi k)) := by
  funext c
  rcases lo_or_hi c with ⟨j, rfl⟩ | ⟨j, rfl⟩
  · rw [join_lo]
  · rw [join_hi]

/-! ## One contraction -/

/-- At a column of the real half the joined contraction is the real half of the complex product. -/
theorem dot2_lo (ar ai : Row) (R I : Mat) (j : Fin 1024) :
    dot2 (join ar ai) (cat R I) (lo j) = cre ar ai R I j := by
  unfold dot2 cre dot
  rw [sum_split]
  simp only [join_lo, join_hi, cat_lo_lo, cat_hi_lo]

/-- At a column of the imaginary half it is the imaginary half, when `a_r` and `I` are real. -/
theorem dot2_hi (ar ai : Row) (R I : Mat) (har : ∀ k, IsReal (ar k)) (hI : ∀ k j, IsReal (I k j)) (j : Fin 1024) :
    dot2 (join ar ai) (cat R I) (hi j) = cim ar ai R I j := by
  unfold dot2 cim dot
  rw [sum_split]
  simp only [join_lo, join_hi, cat_lo_hi, cat_hi_hi, mul_neg]
  rw [sum_neg_real _ (fun k => (har k).mul (hI k j)), sub_eq_add_neg, add_comm]

/-! ## The row -/

section Row

variable (σ τ : EReal → EReal) (one : EReal) (w : Wts) (xr xi hr hi' : Row)

theorem refZ_lo (j : Fin 1024) : refZ σ w (join xr xi) (join hr hi') (lo j) = zR σ w xr xi hr hi' j := by
  unfold refZ zR
  rw [dot2_lo, dot2_lo, join_lo]

theorem refZ_hi (hxr : ∀ k, IsReal (xr k)) (hhr : ∀ k, IsReal (hr k)) (hIz : ∀ k j, IsReal (w.Iz k j))
    (hIRz : ∀ k j, IsReal (w.IRz k j)) (j : Fin 1024) :
    refZ σ w (join xr xi) (join hr hi') (hi j) = zI σ w xr xi hr hi' j := by
  unfold refZ zI
  rw [dot2_hi _ _ _ _ hxr hIz, dot2_hi _ _ _ _ hhr hIRz, join_hi]

theorem refR_lo (j : Fin 1024) : refR σ w (join xr xi) (join hr hi') (lo j) = rR σ w xr xi hr hi' j := by
  unfold refR rR
  rw [dot2_lo, dot2_lo, join_lo]

theorem refR_hi (hxr : ∀ k, IsReal (xr k)) (hhr : ∀ k, IsReal (hr k)) (hIr : ∀ k j, IsReal (w.Ir k j))
    (hIRr : ∀ k j, IsReal (w.IRr k j)) (j : Fin 1024) :
    refR σ w (join xr xi) (join hr hi') (hi j) = rI σ w xr xi hr hi' j := by
  unfold refR rI
  rw [dot2_hi _ _ _ _ hxr hIr, dot2_hi _ _ _ _ hhr hIRr, join_hi]

/-- The reset state over the joined columns is the two reset halves joined. -/
theorem reset_join (hxr : ∀ k, IsReal (xr k)) (hhr : ∀ k, IsReal (hr k)) (hIr : ∀ k j, IsReal (w.Ir k j))
    (hIRr : ∀ k j, IsReal (w.IRr k j)) :
    (fun k => refR σ w (join xr xi) (join hr hi') k * join hr hi' k)
      = join (pR σ w xr xi hr hi') (pI σ w xr xi hr hi') := by
  funext c
  rcases lo_or_hi c with ⟨j, rfl⟩ | ⟨j, rfl⟩
  · rw [refR_lo, join_lo, join_lo]; rfl
  · rw [refR_hi σ w xr xi hr hi' hxr hhr hIr hIRr, join_hi, join_hi]; rfl

theorem refHH_lo (hxr : ∀ k, IsReal (xr k)) (hhr : ∀ k, IsReal (hr k)) (hIr : ∀ k j, IsReal (w.Ir k j))
    (hIRr : ∀ k j, IsReal (w.IRr k j)) (j : Fin 1024) :
    refHH σ τ w (join xr xi) (join hr hi') (lo j) = hhR σ τ w xr xi hr hi' j := by
  unfold refHH hhR
  rw [reset_join σ w xr xi hr hi' hxr hhr hIr hIRr, dot2_lo, dot2_lo, join_lo]

theorem refHH_hi (hσ : ∀ y, IsReal (σ y)) (hxr : ∀ k, IsReal (xr k)) (hhr : ∀ k, IsReal (hr k))
    (hIr : ∀ k j, IsReal (w.Ir k j)) (hIRr : ∀ k j, IsReal (w.IRr k j))
    (hIh : ∀ k j, IsReal (w.Ih k j)) (hIRh : ∀ k j, IsReal (w.IRh k j)) (j : Fin 1024) :
    refHH σ τ w (join xr xi) (join hr hi') (hi j) = hhI σ τ w xr xi hr hi' j := by
  unfold refHH hhI
  rw [reset_join σ w xr xi hr hi' hxr hhr hIr hIRr, dot2_hi _ _ _ _ hxr hIh,
    dot2_hi _ _ _ _ (show ∀ k, IsReal (pR σ w xr xi hr hi' k) from fun k => (hσ _).mul (hhr k)) hIRh, join_hi]

theorem refOut_lo (hxr : ∀ k, IsReal (xr k)) (hhr : ∀ k, IsReal (hr k)) (hIr : ∀ k j, IsReal (w.Ir k j))
    (hIRr : ∀ k j, IsReal (w.IRr k j)) (j : Fin 1024) :
    refOut σ τ one w (join xr xi) (join hr hi') (lo j) = outR σ τ one w xr xi hr hi' j := by
  unfold refOut outR
  rw [refZ_lo, refHH_lo σ τ w xr xi hr hi' hxr hhr hIr hIRr, join_lo]

theorem refOut_hi (hσ : ∀ y, IsReal (σ y)) (hxr : ∀ k, IsReal (xr k)) (hhr : ∀ k, IsReal (hr k))
    (hIz : ∀ k j, IsReal (w.Iz k j)) (hIRz : ∀ k j, IsReal (w.IRz k j))
    (hIr : ∀ k j, IsReal (w.Ir k j)) (hIRr : ∀ k j, IsReal (w.IRr k j))
    (hIh : ∀ k j, IsReal (w.Ih k j)) (hIRh : ∀ k j, IsReal (w.IRh k j)) (j : Fin 1024) :
    refOut σ τ one w (join xr xi) (join hr hi') (hi j) = outI σ τ one w xr xi hr hi' j := by
  unfold refOut outI
  rw [refZ_hi σ w xr xi hr hi' hxr hhr hIz hIRz, refHH_hi σ τ w xr xi hr hi' hσ hxr hhr hIr hIRr hIh hIRh, join_hi]

end Row

/-! ## The arrays -/

/-- On real inputs the joined row computation is the result array's entry. -/
theorem refOut_eq_Gat (X H : FVec Ideal (⟨2, ![4096, 2048]⟩ : Shape) .f32)
    (A2 A3 A4 A5 : FVec Ideal (⟨2, ![1024, 3072]⟩ : Shape) .f32) (B6 B7 : FVec Ideal (⟨1, ![3072]⟩ : Shape) .f32)
    (hX : ∀ i, IsReal (X i)) (hH : ∀ i, IsReal (H i)) (h3 : ∀ i, IsReal (A3 i)) (h5 : ∀ i, IsReal (A5 i))
    (b : Fin 4096) (c : Fin 2048) :
    refOut hsig Ideal.tanh cOne (wts A2 A3 A4 A5 B6 B7) (row X b) (row H b) c = Gat X H A2 A3 A4 A5 B6 B7 b c := by
  have eX : row X b = join (rowLo X b) (rowHi X b) := join_halves (row X b)
  have eH : row H b = join (rowLo H b) (rowHi H b) := join_halves (row H b)
  rw [eX, eH]
  rcases lo_or_hi c with ⟨j, rfl⟩ | ⟨j, rfl⟩
  · rw [Gat_lo]
    exact refOut_lo hsig Ideal.tanh cOne _ _ _ _ _ (fun k => hX _) (fun k => hH _) (fun k j => h3 _) (fun k j => h5 _) j
  · rw [Gat_hi]
    exact refOut_hi hsig Ideal.tanh cOne _ _ _ _ _ hsig_real (fun k => hX _) (fun k => hH _)
      (fun k j => h3 _) (fun k j => h5 _) (fun k j => h3 _) (fun k j => h5 _) (fun k j => h3 _) (fun k j => h5 _) j

end Cert.Cgru

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.Payload.lean ====
/-
  What one grid point's body leaves in the output block, index by index.

  The body loads the real and imaginary halves of a 128-row tile of `inputs` and of `h_tm1` (columns 0..1023 and
  1024..2047 of the two [128, 2048] blocks), the three gate slices of each of the four [1024, 3072] kernels
  (columns 0.., 1024.., 2048..) and of the two [1, 3072] bias rows, and stores the real half of the new state into
  columns 0..1023 of the output block and the imaginary half into columns 1024..2047. Every matrix product is a
  `[128, 1024] × [1024, 1024]` product into the zero accumulator: at (p, q) the sum over k of row p times column q.
  Everything else is elementwise, and a change of float format is the identity on extended reals. So the stored
  block is, at row p and joined column c, the half-by-half row computation of the specification on row p of the two
  data blocks — `Gblk`.
-/
import proofs.«104676_j23922967838776_2_alg».proof.Proof.Gen.KernelIdeal.Frame
import proofs.«104676_j23922967838776_2_alg».proof.Proof.Bridge
import proofs.«104676_j23922967838776_2_alg».proof.Proof.LibContractSum
import Idealize.ShloMosaic.Lib.Pipeline.Value
import Idealize.ShloMosaic.Lib.ValueIdx
import Idealize.ShloMosaic.PureOps.Ideal.Laws

set_option maxRecDepth 16384

noncomputable section

open scoped BigOperators

namespace Cert.Cgru.Payload

open Cert.KernelIdeal Cert.KernelIdeal.Gen Idealize.ShloMosaic Idealize.ShloMosaic.TcCoe Idealize.ShloMosaic.ValueIdx Cert.Cgru

/-! ## One matrix product at an index -/

/-- The dimension record of every product in the body: rows of the left operand by columns of the right. -/
abbrev DD : DotDims S128x1024 S1024x1024 S128x1024 := dot_S128x1024_S1024x1024_S128x1024_1_0_0_1_n_n

theorem lhs_0 (i : S128x1024.Idx) (c : DD.contr.Idx) : (DD.lhsIdx i c 0).val = (i 0).val := by
  unfold DotDims.lhsIdx
  rw [dif_neg (show ¬(0 : Fin S128x1024.rank) ∈ DD.lhsBatch by decide), dif_pos (show (0 : Fin S128x1024.rank) ∈ DD.lhsNonContracting by decide)]
  rfl
theorem lhs_1 (i : S128x1024.Idx) (c : DD.contr.Idx) : (DD.lhsIdx i c 1).val = (c ⟨0, by decide⟩).val :=
  DD.lhsIdx_val_of_single rfl i c
theorem rhs_0 (i : S128x1024.Idx) (c : DD.contr.Idx) : (DD.rhsIdx i c 0).val = (c ⟨0, by decide⟩).val :=
  DD.rhsIdx_val_of_single rfl i c
theorem rhs_1 (i : S128x1024.Idx) (c : DD.contr.Idx) : (DD.rhsIdx i c 1).val = (i 1).val := by
  unfold DotDims.rhsIdx
  rw [dif_neg (show ¬(1 : Fin S1024x1024.rank) ∈ DD.rhsBatch by decide), dif_pos (show (1 : Fin S1024x1024.rank) ∈ DD.rhsNonContracting by decide)]
  rfl

/-- A product into the zero accumulator, at (p, q): row p of the left operand by column q of the right. -/
theorem mm_apply (a : FVec Ideal S128x1024 .bf16) (W : FVec Ideal S1024x1024 .bf16) (p : Fin 128) (q : Fin 1024) :
    matmul dot_S128x1024_S1024x1024_S128x1024_1_0_0_1_n_n none a W (constant S128x1024 .f32 0x00000000#32) (ix2 p q)
      = ∑ k : Fin 1024, a (ix2 p k) * W (ix2 k q) := by
  refine Cert.LibContractSum.matmul_zero_sum DD none 1024 rfl rfl a W (ix2 p q)
    (fun k => ix2 p k) (fun k => ix2 k q) (fun k => ?_) (fun k => ?_)
  · have hk := contrEquiv1_symm_val DD 1024 rfl rfl k
    exact funext fun a => Fin.ext (by
      match a with
      | ⟨0, _⟩ => exact lhs_0 _ _
      | ⟨1, _⟩ => exact (lhs_1 _ _).trans hk)
  · have hk := contrEquiv1_symm_val DD 1024 rfl rfl k
    exact funext fun a => Fin.ext (by
      match a with
      | ⟨0, _⟩ => exact (rhs_0 _ _).trans hk
      | ⟨1, _⟩ => exact rhs_1 _ _)

/-! ## The layout steps -/

/-- A bias row broadcast down the 128 rows reads the row's entry. -/
theorem bias_apply (v : Vec Ideal S1x1024 .f32) (p : Fin 128) (q : Fin 1024) :
    broadcastTo S128x1024 v broadcasts_S1x1024_S128x1024 (ix2 p q) = v (ix2 (0 : Fin 1) q) :=
  broadcastTo_apply v broadcasts_S1x1024_S128x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- The hyperbolic tangent of a vector, at an index. -/
theorem tanh_apply (v : FVec Ideal S128x1024 .f32) (i : S128x1024.Idx) : tanh v i = Ideal.tanh (v i) := rfl

/-- The real half of a data block: local column k is column k. -/
theorem idx_r0_0 (p : Fin 128) (k : Fin 1024) : r0_0.idx (ix2 p k) = ix2 p (lo k) :=
  funext fun a => Fin.ext (by
    match a with
    | ⟨0, _⟩ => show 0 + 1 * p.val = p.val; omega
    | ⟨1, _⟩ => show 0 + 1 * k.val = k.val; omega)
/-- The imaginary half of a data block: local column k is column 1024 + k. -/
theorem idx_r0_1 (p : Fin 128) (k : Fin 1024) : r0_1.idx (ix2 p k) = ix2 p (hi k) :=
  funext fun a => Fin.ext (by
    match a with
    | ⟨0, _⟩ => show 0 + 1 * p.val = p.val; omega
    | ⟨1, _⟩ => show 1024 + 1 * k.val = 1024 + k.val; omega)
/-- The update gate's slice of a kernel block. -/
theorem idx_r0_2 (k j : Fin 1024) : r0_2.idx (ix2 k j) = ix2 k (col0 j) :=
  funext fun a => Fin.ext (by
    match a with
    | ⟨0, _⟩ => show 0 + 1 * k.val = k.val; omega
    | ⟨1, _⟩ => show 0 + 1 * j.val = j.val; omega)
/-- The reset gate's slice. -/
theorem idx_r0_3 (k j : Fin 1024) : r0_3.idx (ix2 k j) = ix2 k (col1 j) :=
  funext fun a => Fin.ext (by
    match a with
    | ⟨0, _⟩ => show 0 + 1 * k.val = k.val; omega
    | ⟨1, _⟩ => show 1024 + 1 * j.val = 1024 + j.val; omega)
/-- The candidate's slice. -/
theorem idx_r0_4 (k j : Fin 1024) : r0_4.idx (ix2 k j) = ix2 k (col2 j) :=
  funext fun a => Fin.ext (by
    match a with
    | ⟨0, _⟩ => show 0 + 1 * k.val = k.val; omega
    | ⟨1, _⟩ => show 2048 + 1 * j.val = 2048 + j.val; omega)
/-- The three slices of a bias row. -/
theorem idx_r0_5 (j : Fin 1024) : r0_5.idx (ix2 (0 : Fin 1) j) = ix2 (0 : Fin 1) (col0 j) :=
  funext fun a => Fin.ext (by
    match a with
    | ⟨0, _⟩ => rfl
    | ⟨1, _⟩ => show 0 + 1 * j.val = j.val; omega)
theorem idx_r0_6 (j : Fin 1024) : r0_6.idx (ix2 (0 : Fin 1) j) = ix2 (0 : Fin 1) (col1 j) :=
  funext fun a => Fin.ext (by
    match a with
    | ⟨0, _⟩ => rfl
    | ⟨1, _⟩ => show 1024 + 1 * j.val = 1024 + j.val; omega)
theorem idx_r0_7 (j : Fin 1024) : r0_7.idx (ix2 (0 : Fin 1) j) = ix2 (0 : Fin 1) (col2 j) :=
  funext fun a => Fin.ext (by
    match a with
    | ⟨0, _⟩ => rfl
    | ⟨1, _⟩ => show 2048 + 1 * j.val = 2048 + j.val; omega)

/-- The update gate's bias slice, loaded and broadcast down the rows. -/
theorem bias5 (x : Vec Ideal S1x3072 .f32) (p : Fin 128) (q : Fin 1024) :
    @broadcastTo S1x1024 (Ideal .f32) S128x1024 (View.ld x r0_5) broadcasts_S1x1024_S128x1024 (ix2 p q)
      = x (ix2 (0 : Fin 1) (col0 q)) :=
  (bias_apply (View.ld x r0_5) p q).trans (congrArg x (idx_r0_5 q))
/-- The reset gate's bias slice. -/
theorem bias6 (x : Vec Ideal S1x3072 .f32) (p : Fin 128) (q : Fin 1024) :
    @broadcastTo S1x1024 (Ideal .f32) S128x1024 (View.ld x r0_6) broadcasts_S1x1024_S128x1024 (ix2 p q)
      = x (ix2 (0 : Fin 1) (col1 q)) :=
  (bias_apply (View.ld x r0_6) p q).trans (congrArg x (idx_r0_6 q))
/-- The candidate's bias slice. -/
theorem bias7 (x : Vec Ideal S1x3072 .f32) (p : Fin 128) (q : Fin 1024) :
    @broadcastTo S1x1024 (Ideal .f32) S128x1024 (View.ld x r0_7) broadcasts_S1x1024_S128x1024 (ix2 p q)
      = x (ix2 (0 : Fin 1) (col2 q)) :=
  (bias_apply (View.ld x r0_7) p q).trans (congrArg x (idx_r0_7 q))

/-! ## The block's result -/

/-- The gate matrices and bias halves as slices of the four kernel blocks and the two bias rows. -/
def wB (x2 x3 x4 x5 : Vec Ideal S1024x3072 .bf16) (x6 x7 : Vec Ideal S1x3072 .f32) : Wts where
  Rz := fun k j => x2 (ix2 k (col0 j))
  Rr := fun k j => x2 (ix2 k (col1 j))
  Rh := fun k j => x2 (ix2 k (col2 j))
  Iz := fun k j => x3 (ix2 k (col0 j))
  Ir := fun k j => x3 (ix2 k (col1 j))
  Ih := fun k j => x3 (ix2 k (col2 j))
  RRz := fun k j => x4 (ix2 k (col0 j))
  RRr := fun k j => x4 (ix2 k (col1 j))
  RRh := fun k j => x4 (ix2 k (col2 j))
  IRz := fun k j => x5 (ix2 k (col0 j))
  IRr := fun k j => x5 (ix2 k (col1 j))
  IRh := fun k j => x5 (ix2 k (col2 j))
  rbz := fun j => x6 (ix2 (0 : Fin 1) (col0 j))
  rbr := fun j => x6 (ix2 (0 : Fin 1) (col1 j))
  rbh := fun j => x6 (ix2 (0 : Fin 1) (col2 j))
  ibz := fun j => x7 (ix2 (0 : Fin 1) (col0 j))
  ibr := fun j => x7 (ix2 (0 : Fin 1) (col1 j))
  ibh := fun j => x7 (ix2 (0 : Fin 1) (col2 j))

/-- The new state of the tile, one entry: local row p, joined column c. -/
def GblkAt (x0 x1 : Vec Ideal S128x2048 .f32) (x2 x3 x4 x5 : Vec Ideal S1024x3072 .bf16) (x6 x7 : Vec Ideal S1x3072 .f32)
    (p : Fin 128) (c : Fin 2048) : EReal :=
  join
    (outR hsig Ideal.tanh cOne (wB x2 x3 x4 x5 x6 x7) (fun k => x0 (ix2 p (lo k))) (fun k => x0 (ix2 p (hi k)))
      (fun k => x1 (ix2 p (lo k))) (fun k => x1 (ix2 p (hi k))))
    (outI hsig Ideal.tanh cOne (wB x2 x3 x4 x5 x6 x7) (fun k => x0 (ix2 p (lo k))) (fun k => x0 (ix2 p (hi k)))
      (fun k => x1 (ix2 p (lo k))) (fun k => x1 (ix2 p (hi k))))
    c

/-- The new state of the tile as a block. -/
def Gblk (x0 x1 : Vec Ideal S128x2048 .f32) (x2 x3 x4 x5 : Vec Ideal S1024x3072 .bf16) (x6 x7 : Vec Ideal S1x3072 .f32) :
    Vec Ideal S128x2048 .f32 :=
  fun y => GblkAt x0 x1 x2 x3 x4 x5 x6 x7 (y 0) (y 1)

theorem emb_r0_0 (p : Fin 128) (q : Fin 1024) : r0_0.emb (ix2 p q) = ix2 p (lo q) := idx_r0_0 p q
theorem emb_r0_1 (p : Fin 128) (q : Fin 1024) : r0_1.emb (ix2 p q) = ix2 p (hi q) := idx_r0_1 p q

/-- The body's two stores, as pieces over the input blocks, are the tile's new state. -/
theorem out_eq (x0 x1 : Vec Ideal S128x2048 .f32) (x2 x3 x4 x5 : Vec Ideal S1024x3072 .bf16) (x6 x7 : Vec Ideal S1x3072 .f32) :
    out0_8 x0 x1 x2 x3 x4 x5 x6 x7 = Gblk x0 x1 x2 x3 x4 x5 x6 x7 := by
  funext y
  unfold out0_8
  refine View.canon_apply_of_pieces (Gblk x0 x1 x2 x3 x4 x5 x6 x7) _ ?_ y (cover0_8 _ _ y)
  intro pc hpc x
  simp only [List.mem_cons, List.not_mem_nil, or_false] at hpc
  rcases hpc with rfl | rfl
  · obtain ⟨p, q, rfl⟩ : ∃ (p : Fin 128) (q : Fin 1024), x = ix2 p q := ⟨x 0, x 1, eq_ix2 x⟩
    dsimp only
    rw [emb_r0_1]
    show _ = GblkAt x0 x1 x2 x3 x4 x5 x6 x7 p (hi q)
    unfold GblkAt
    rw [join_hi]
    simp only [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21, k0_pay22,
      k0_pay23, k0_pay24, k0_pay25, k0_pay26, k0_pay27, k0_pay28, k0_pay29, k0_pay30, k0_pay31, k0_pay32, k0_pay34,
      addf_apply, subf_apply, mulf_apply, maximumf_apply, minimumf_apply, broadcast_apply, truncf_apply, tanh_apply,
      mm_apply, bias5, bias6, bias7, shapeCast_self, View.ld, idx_r0_0, idx_r0_1, idx_r0_2, idx_r0_3, idx_r0_4, idx_r0_5,
      idx_r0_6, idx_r0_7,
      Ideal.ofBits_def, outI, zI, hhI, pR, pI, rR, rI, cre, cim, dot, wB, hsig, cOne, cZero, cFifth, cHalf]
  · obtain ⟨p, q, rfl⟩ : ∃ (p : Fin 128) (q : Fin 1024), x = ix2 p q := ⟨x 0, x 1, eq_ix2 x⟩
    dsimp only
    rw [emb_r0_0]
    show _ = GblkAt x0 x1 x2 x3 x4 x5 x6 x7 p (lo q)
    unfold GblkAt
    rw [join_lo]
    simp only [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21, k0_pay22,
      k0_pay23, k0_pay24, k0_pay25, k0_pay26, k0_pay27, k0_pay28, k0_pay29, k0_pay30, k0_pay31, k0_pay32, k0_pay33,
      addf_apply, subf_apply, mulf_apply, maximumf_apply, minimumf_apply, broadcast_apply, truncf_apply, tanh_apply,
      mm_apply, bias5, bias6, bias7, shapeCast_self, View.ld, idx_r0_0, idx_r0_1, idx_r0_2, idx_r0_3, idx_r0_4, idx_r0_5,
      idx_r0_6, idx_r0_7,
      Ideal.ofBits_def, outR, zR, hhR, pR, pI, rR, rI, cre, cim, dot, wB, hsig, cOne, cZero, cFifth, cHalf]

end Cert.Cgru.Payload

end
-- ==== Proof.Blocks.lean ====
/-
  From the blocks to the arrays.

  The grid has 32 points. Point `t` reads rows `128 t … 128 t + 127` of the two [4096, 2048] arguments (windows 0
  and 1), all of each of the four [1024, 3072] weight arrays (windows 2 to 5: the host's change of float format of
  arguments 2 to 5, the identity on extended reals) and all of the two [1, 3072] bias rows (windows 6 and 7: the
  host's reshape of arguments 6 and 7), and writes rows `128 t … 128 t + 127` of the [4096, 2048] result (window 8).
  Stated here: each input block's entry as an entry of an argument array, with explicit coordinates; and, for ANY
  whole-array function `Gfun` such that the body's result at every point `t` has at `(p, q)` the value
  `Gfun (128 t + p, q)`, that the result array ends holding `Gfun`: row `r` of the array is covered by point
  `r / 128`, and what that point writes back is its block of `Gfun`.
-/
import proofs.«104676_j23922967838776_2_alg».proof.Proof.Gen.KernelIdeal.Value
import Idealize.ShloMosaic.Lib.Pipeline.Value
import Idealize.ShloMosaic.Lib.ValueIdx

noncomputable section

namespace Cert.Cgru.Blocks

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where the blocks sit -/

/-- Row `p` of point `t`'s row block: row `128 t + p` of a [4096, 2048] array. -/
def rowAt (t : Fin cfg0.N) (p : Fin 128) : Fin 4096 :=
  ⟨128 * t.val + p.val, by have hN : cfg0.N = 32 := N_0; have h1 := t.isLt; have h2 := p.isLt; omega⟩

@[simp] theorem rowAt_val (t : Fin cfg0.N) (p : Fin 128) : (rowAt t p).val = 128 * t.val + p.val := rfl

/-- The printed index maps, decided over the 32 points: windows 0, 1 and 8 are at block row `t`, column block 0; -/
theorem idx_rows0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_rows1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_rows8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
/-- windows 2 to 7 are at block (0, 0), their whole array, at every point. -/
theorem idx_whole2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_whole3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_whole4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_whole5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_whole6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_whole7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Entry `(p, q)` of point `t`'s block of window 0 sits at row `128 t + p`, column `q` of its array. -/
theorem emb0 (t : Fin cfg0.N) (p : Fin 128) (q : Fin 2048) :
    ((cfg0.win 0).blk t).view.emb (ix2 p q) = (ix2 (rowAt t p) q : S4096x2048.Idx) := by
  obtain ⟨e0, e1⟩ := idx_rows0 t
  funext a; apply Fin.ext
  match a with
  | ⟨0, _⟩ => show win0_0.index t (0 : Fin 2) * 128 + 1 * p.val = 128 * t.val + p.val; rw [e0]; omega
  | ⟨1, _⟩ => show win0_0.index t (1 : Fin 2) * 2048 + 1 * q.val = q.val; rw [e1]; omega

/-- Entry `(p, q)` of point `t`'s block of window 1 sits at row `128 t + p`, column `q` of its array. -/
theorem emb1 (t : Fin cfg0.N) (p : Fin 128) (q : Fin 2048) :
    ((cfg0.win 1).blk t).view.emb (ix2 p q) = (ix2 (rowAt t p) q : S4096x2048.Idx) := by
  obtain ⟨e0, e1⟩ := idx_rows1 t
  funext a; apply Fin.ext
  match a with
  | ⟨0, _⟩ => show win0_1.index t (0 : Fin 2) * 128 + 1 * p.val = 128 * t.val + p.val; rw [e0]; omega
  | ⟨1, _⟩ => show win0_1.index t (1 : Fin 2) * 2048 + 1 * q.val = q.val; rw [e1]; omega

/-- Entry `(p, q)` of point `t`'s block of window 8 sits at row `128 t + p`, column `q` of its array. -/
theorem emb8 (t : Fin cfg0.N) (p : Fin 128) (q : Fin 2048) :
    ((cfg0.win 8).blk t).view.emb (ix2 p q) = (ix2 (rowAt t p) q : S4096x2048.Idx) := by
  obtain ⟨e0, e1⟩ := idx_rows8 t
  funext a; apply Fin.ext
  match a with
  | ⟨0, _⟩ => show win0_8.index t (0 : Fin 2) * 128 + 1 * p.val = 128 * t.val + p.val; rw [e0]; omega
  | ⟨1, _⟩ => show win0_8.index t (1 : Fin 2) * 2048 + 1 * q.val = q.val; rw [e1]; omega

/-- Window 2's block is its whole array at every point: entry `(k, j)` of the block is entry `(k, j)` of the array. -/
theorem emb2 (t : Fin cfg0.N) (k : Fin 1024) (j : Fin 3072) :
    ((cfg0.win 2).blk t).view.emb (ix2 k j) = (ix2 k j : S1024x3072.Idx) := by
  obtain ⟨e0, e1⟩ := idx_whole2 t
  funext a; apply Fin.ext
  match a with
  | ⟨0, _⟩ => show win0_2.index t (0 : Fin 2) * 1024 + 1 * k.val = k.val; rw [e0]; omega
  | ⟨1, _⟩ => show win0_2.index t (1 : Fin 2) * 3072 + 1 * j.val = j.val; rw [e1]; omega

/-- Window 3's block is its whole array at every point: entry `(k, j)` of the block is entry `(k, j)` of the array. -/
theorem emb3 (t : Fin cfg0.N) (k : Fin 1024) (j : Fin 3072) :
    ((cfg0.win 3).blk t).view.emb (ix2 k j) = (ix2 k j : S1024x3072.Idx) := by
  obtain ⟨e0, e1⟩ := idx_whole3 t
  funext a; apply Fin.ext
  match a with
  | ⟨0, _⟩ => show win0_3.index t (0 : Fin 2) * 1024 + 1 * k.val = k.val; rw [e0]; omega
  | ⟨1, _⟩ => show win0_3.index t (1 : Fin 2) * 3072 + 1 * j.val = j.val; rw [e1]; omega

/-- Window 4's block is its whole array at every point: entry `(k, j)` of the block is entry `(k, j)` of the array. -/
theorem emb4 (t : Fin cfg0.N) (k : Fin 1024) (j : Fin 3072) :
    ((cfg0.win 4).blk t).view.emb (ix2 k j) = (ix2 k j : S1024x3072.Idx) := by
  obtain ⟨e0, e1⟩ := idx_whole4 t
  funext a; apply Fin.ext
  match a with
  | ⟨0, _⟩ => show win0_4.index t (0 : Fin 2) * 1024 + 1 * k.val = k.val; rw [e0]; omega
  | ⟨1, _⟩ => show win0_4.index t (1 : Fin 2) * 3072 + 1 * j.val = j.val; rw [e1]; omega

/-- Window 5's block is its whole array at every point: entry `(k, j)` of the block is entry `(k, j)` of the array. -/
theorem emb5 (t : Fin cfg0.N) (k : Fin 1024) (j : Fin 3072) :
    ((cfg0.win 5).blk t).view.emb (ix2 k j) = (ix2 k j : S1024x3072.Idx) := by
  obtain ⟨e0, e1⟩ := idx_whole5 t
  funext a; apply Fin.ext
  match a with
  | ⟨0, _⟩ => show win0_5.index t (0 : Fin 2) * 1024 + 1 * k.val = k.val; rw [e0]; omega
  | ⟨1, _⟩ => show win0_5.index t (1 : Fin 2) * 3072 + 1 * j.val = j.val; rw [e1]; omega

/-- Window 6's block is its whole one-row array at every point. -/
theorem emb6 (t : Fin cfg0.N) (j : Fin 3072) :
    ((cfg0.win 6).blk t).view.emb (ix2 (0 : Fin 1) j) = (ix2 (0 : Fin 1) j : S1x3072.Idx) := by
  obtain ⟨e0, e1⟩ := idx_whole6 t
  funext a; apply Fin.ext
  match a with
  | ⟨0, _⟩ => show win0_6.index t (0 : Fin 2) * 1 + 1 * 0 = 0; rw [e0]
  | ⟨1, _⟩ => show win0_6.index t (1 : Fin 2) * 3072 + 1 * j.val = j.val; rw [e1]; omega

/-- Window 7's block is its whole one-row array at every point. -/
theorem emb7 (t : Fin cfg0.N) (j : Fin 3072) :
    ((cfg0.win 7).blk t).view.emb (ix2 (0 : Fin 1) j) = (ix2 (0 : Fin 1) j : S1x3072.Idx) := by
  obtain ⟨e0, e1⟩ := idx_whole7 t
  funext a; apply Fin.ext
  match a with
  | ⟨0, _⟩ => show win0_7.index t (0 : Fin 2) * 1 + 1 * 0 = 0; rw [e0]
  | ⟨1, _⟩ => show win0_7.index t (1 : Fin 2) * 3072 + 1 * j.val = j.val; rw [e1]; omega

/-! ## The input blocks, entry by entry -/

/-- Entry `(p, k)` of input window 0's block at point `t` is entry `(128 t + p, k)` of argument 0. -/
theorem iblk0_apply (c : Dev nD) (t : Fin cfg0.N) (p : Fin 128) (k : Fin 2048) :
    (iblk m c 0 t : Vec Ideal S128x2048 .f32) (ix2 p k)
      = (m ((c : Thread nD τ).loc main_arg0) : S4096x2048.Idx → EReal) (ix2 (rowAt t p) k) := by
  unfold iblk
  rw [View.read_apply]
  show V m c main_arg0 (((cfg0.win 0).blk t).view.emb (ix2 p k)) = _
  rw [emb0, V_main_arg0]

/-- Entry `(p, k)` of input window 1's block at point `t` is entry `(128 t + p, k)` of argument 1. -/
theorem iblk1_apply (c : Dev nD) (t : Fin cfg0.N) (p : Fin 128) (k : Fin 2048) :
    (iblk m c 1 t : Vec Ideal S128x2048 .f32) (ix2 p k)
      = (m ((c : Thread nD τ).loc main_arg1) : S4096x2048.Idx → EReal) (ix2 (rowAt t p) k) := by
  unfold iblk
  rw [View.read_apply]
  show V m c main_arg1 (((cfg0.win 1).blk t).view.emb (ix2 p k)) = _
  rw [emb1, V_main_arg1]

/-- The host's change of float format of argument 2, the identity on extended reals, is what the region finds. -/
theorem V_main_v0 (c : Dev nD) :
    (V m c main_v0 : S1024x3072.Idx → EReal) = (m ((c : Thread nD τ).loc main_arg2) : S1024x3072.Idx → EReal) := by
  dsimp only [Gen.V, Gen.hostOps0]
  after_results
  rfl

/-- The host's change of float format of argument 3, the identity on extended reals, is what the region finds. -/
theorem V_main_v1 (c : Dev nD) :
    (V m c main_v1 : S1024x3072.Idx → EReal) = (m ((c : Thread nD τ).loc main_arg3) : S1024x3072.Idx → EReal) := by
  dsimp only [Gen.V, Gen.hostOps0]
  after_results
  rfl

/-- The host's change of float format of argument 4, the identity on extended reals, is what the region finds. -/
theorem V_main_v2 (c : Dev nD) :
    (V m c main_v2 : S1024x3072.Idx → EReal) = (m ((c : Thread nD τ).loc main_arg4) : S1024x3072.Idx → EReal) := by
  dsimp only [Gen.V, Gen.hostOps0]
  after_results
  rfl

/-- The host's change of float format of argument 5, the identity on extended reals, is what the region finds. -/
theorem V_main_v3 (c : Dev nD) :
    (V m c main_v3 : S1024x3072.Idx → EReal) = (m ((c : Thread nD τ).loc main_arg5) : S1024x3072.Idx → EReal) := by
  dsimp only [Gen.V, Gen.hostOps0]
  after_results
  rfl

/-- Entry `(k, j)` of input window 2's block, at any point, is entry `(k, j)` of argument 2. -/
theorem iblk2_apply (c : Dev nD) (t : Fin cfg0.N) (k : Fin 1024) (j : Fin 3072) :
    ((iblk m c 2 t : Vec Ideal S1024x3072 .bf16) (ix2 k j) : EReal)
      = (m ((c : Thread nD τ).loc main_arg2) : S1024x3072.Idx → EReal) (ix2 k j) := by
  unfold iblk
  rw [View.read_apply]
  show (V m c main_v0 : S1024x3072.Idx → EReal) (((cfg0.win 2).blk t).view.emb (ix2 k j)) = _
  rw [emb2]
  exact congrFun (V_main_v0 m c) _

/-- Entry `(k, j)` of input window 3's block, at any point, is entry `(k, j)` of argument 3. -/
theorem iblk3_apply (c : Dev nD) (t : Fin cfg0.N) (k : Fin 1024) (j : Fin 3072) :
    ((iblk m c 3 t : Vec Ideal S1024x3072 .bf16) (ix2 k j) : EReal)
      = (m ((c : Thread nD τ).loc main_arg3) : S1024x3072.Idx → EReal) (ix2 k j) := by
  unfold iblk
  rw [View.read_apply]
  show (V m c main_v1 : S1024x3072.Idx → EReal) (((cfg0.win 3).blk t).view.emb (ix2 k j)) = _
  rw [emb3]
  exact congrFun (V_main_v1 m c) _

/-- Entry `(k, j)` of input window 4's block, at any point, is entry `(k, j)` of argument 4. -/
theorem iblk4_apply (c : Dev nD) (t : Fin cfg0.N) (k : Fin 1024) (j : Fin 3072) :
    ((iblk m c 4 t : Vec Ideal S1024x3072 .bf16) (ix2 k j) : EReal)
      = (m ((c : Thread nD τ).loc main_arg4) : S1024x3072.Idx → EReal) (ix2 k j) := by
  unfold iblk
  rw [View.read_apply]
  show (V m c main_v2 : S1024x3072.Idx → EReal) (((cfg0.win 4).blk t).view.emb (ix2 k j)) = _
  rw [emb4]
  exact congrFun (V_main_v2 m c) _

/-- Entry `(k, j)` of input window 5's block, at any point, is entry `(k, j)` of argument 5. -/
theorem iblk5_apply (c : Dev nD) (t : Fin cfg0.N) (k : Fin 1024) (j : Fin 3072) :
    ((iblk m c 5 t : Vec Ideal S1024x3072 .bf16) (ix2 k j) : EReal)
      = (m ((c : Thread nD τ).loc main_arg5) : S1024x3072.Idx → EReal) (ix2 k j) := by
  unfold iblk
  rw [View.read_apply]
  show (V m c main_v3 : S1024x3072.Idx → EReal) (((cfg0.win 5).blk t).view.emb (ix2 k j)) = _
  rw [emb5]
  exact congrFun (V_main_v3 m c) _

/-- The host's reshape of argument 6 to one row is what the region finds. -/
theorem V_main_v4 (c : Dev nD) :
    (V m c main_v4 : S1x3072.Idx → EReal)
      = shapeCast S1x3072 (m ((c : Thread nD τ).loc main_arg6) : S3072.Idx → EReal) shapeCasts_S3072_S1x3072 := by
  dsimp only [Gen.V, Gen.hostOps0]
  after_results
  rfl

/-- The host's reshape of argument 7 to one row is what the region finds. -/
theorem V_main_v5 (c : Dev nD) :
    (V m c main_v5 : S1x3072.Idx → EReal)
      = shapeCast S1x3072 (m ((c : Thread nD τ).loc main_arg7) : S3072.Idx → EReal) shapeCasts_S3072_S1x3072 := by
  dsimp only [Gen.V, Gen.hostOps0]
  after_results
  rfl

/-- Entry `(0, j)` of input window 6's block, at any point, is entry `j` of argument 6. -/
theorem iblk6_apply (c : Dev nD) (t : Fin cfg0.N) (j : Fin 3072) :
    (iblk m c 6 t : Vec Ideal S1x3072 .f32) (ix2 (0 : Fin 1) j)
      = (m ((c : Thread nD τ).loc main_arg6) : S3072.Idx → EReal) (ix1 j) := by
  unfold iblk
  rw [View.read_apply]
  show (V m c main_v4 : S1x3072.Idx → EReal) (((cfg0.win 6).blk t).view.emb (ix2 (0 : Fin 1) j)) = _
  rw [emb6]
  refine (congrFun (V_main_v4 m c) _).trans ?_
  refine shapeCast_apply _ _ _ (ix1 j) ?_
  rw [Shape.rowMajor_val_one, Shape.rowMajor_val_two]
  show j.val = 0 * 3072 + j.val
  omega

/-- Entry `(0, j)` of input window 7's block, at any point, is entry `j` of argument 7. -/
theorem iblk7_apply (c : Dev nD) (t : Fin cfg0.N) (j : Fin 3072) :
    (iblk m c 7 t : Vec Ideal S1x3072 .f32) (ix2 (0 : Fin 1) j)
      = (m ((c : Thread nD τ).loc main_arg7) : S3072.Idx → EReal) (ix1 j) := by
  unfold iblk
  rw [View.read_apply]
  show (V m c main_v5 : S1x3072.Idx → EReal) (((cfg0.win 7).blk t).view.emb (ix2 (0 : Fin 1) j)) = _
  rw [emb7]
  refine (congrFun (V_main_v5 m c) _).trans ?_
  refine shapeCast_apply _ _ _ (ix1 j) ?_
  rw [Shape.rowMajor_val_one, Shape.rowMajor_val_two]
  show j.val = 0 * 3072 + j.val
  omega

/-! ## The result array -/

/-- An index of the result array is in point `t`'s block iff each coordinate is in the block's range on its axis. -/
theorem mem_blk (t : Fin cfg0.N) (i : S4096x2048.Idx) :
    i ∈ ((cfg0.win 8).blk t).view.set ↔ ∀ a : Fin 2, win0_8.index t a * S128x2048.size a ≤ (i a).val ∧ (i a).val < win0_8.index t a * S128x2048.size a + S128x2048.size a := by
  show i ∈ ((View.whole main_v6).slice (win0_8.rect t)).set ↔ _
  rw [View.set_slice_whole, Rect.mem_set_unit]
  exact Iff.rfl

/-- Every index of the result array is in the block of the point its row falls to: row `r` is covered by point `r / 128`. -/
theorem cover (i : S4096x2048.Idx) : ∃ t : Fin cfg0.N, (cfg0.win 8).flush t = true ∧ i ∈ ((cfg0.win 8).blk t).view.set := by
  have hN : cfg0.N = 32 := N_0
  have hi0 : (i 0).val < 4096 := (i 0).isLt
  have hi1 : (i 1).val < 2048 := (i 1).isLt
  obtain ⟨t, ht⟩ : ∃ t : Fin cfg0.N, t.val = (i 0).val / 128 := ⟨⟨(i 0).val / 128, by rw [hN]; omega⟩, rfl⟩
  refine ⟨t, flush0_8 t, ?_⟩
  rw [mem_blk]
  obtain ⟨e0, e1⟩ := idx_rows8 t
  intro a
  match a with
  | ⟨0, _⟩ => show win0_8.index t (0 : Fin 2) * 128 ≤ (i 0).val ∧ (i 0).val < win0_8.index t (0 : Fin 2) * 128 + 128; rw [e0]; omega
  | ⟨1, _⟩ => show win0_8.index t (1 : Fin 2) * 2048 ≤ (i 1).val ∧ (i 1).val < win0_8.index t (1 : Fin 2) * 2048 + 2048; rw [e1]; omega

/-- WHAT POINT `t` WRITES BACK is its block of `Gfun`, when the body's result at `t` has at `(p, q)` the value of `Gfun` at
    row `128 t + p`, column `q`. -/
theorem flushed_eq (c : Dev nD) (Gfun : S4096x2048.Idx → EReal)
    (hpt : ∀ (t : Fin cfg0.N) (p : Fin 128) (q : Fin 2048),
      out0_8 (iblk m c 0 t) (iblk m c 1 t) (iblk m c 2 t) (iblk m c 3 t) (iblk m c 4 t) (iblk m c 5 t) (iblk m c 6 t) (iblk m c 7 t) (ix2 p q) = Gfun (ix2 (rowAt t p) q))
    (t : Fin cfg0.N) :
    (dats m 0 c).flushed 8 t = ((cfg0.win 8).blk t).view.read (Elt Ideal) Gfun := by
  rw [Cert.KernelIdeal.Value.flushed8]
  refine funext fun (y : S128x2048.Idx) => ?_
  obtain ⟨p, q, rfl⟩ : ∃ (p : Fin 128) (q : Fin 2048), y = ix2 p q := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 p q) = Gfun (((cfg0.win 8).blk t).view.emb (ix2 p q))
  rw [emb8, hpt]

/-- THE RESULT ARRAY after the run is `Gfun`. -/
theorem arr_eq (c : Dev nD) (Gfun : S4096x2048.Idx → EReal)
    (hpt : ∀ (t : Fin cfg0.N) (p : Fin 128) (q : Fin 2048),
      out0_8 (iblk m c 0 t) (iblk m c 1 t) (iblk m c 2 t) (iblk m c 3 t) (iblk m c 4 t) (iblk m c 5 t) (iblk m c 6 t) (iblk m c 7 t) (ix2 p q) = Gfun (ix2 (rowAt t p) q)) :
    (dats m 0 c).arrAt 8 cfg0.N = Gfun :=
  (dats m 0 c).arrAt_eq_of_cover 8 Gfun (fun t _ => flushed_eq m c Gfun hpt t) cover

/-- The same from the body's result given as a function of the block's index: `fun y => Gfun (emb y)`. -/
theorem final_of_blocks (c : Dev nD) (Gfun : S4096x2048.Idx → EReal)
    (hflush : ∀ t : Fin cfg0.N,
      out0_8 (iblk m c 0 t) (iblk m c 1 t) (iblk m c 2 t) (iblk m c 3 t) (iblk m c 4 t) (iblk m c 5 t) (iblk m c 6 t) (iblk m c 7 t) = fun y => Gfun (((cfg0.win 8).blk t).view.emb y)) :
    (dats m 0 c).arrAt 8 cfg0.N = Gfun :=
  arr_eq m c Gfun fun t p q => by
    rw [hflush t]
    show Gfun (((cfg0.win 8).blk t).view.emb (ix2 p q)) = _
    rw [emb8]

/-- The same from the body's result read at every index `y` of the block. -/
theorem final_of_flush (c : Dev nD) (Gfun : S4096x2048.Idx → EReal)
    (hflush : ∀ (t : Fin cfg0.N) (y : S128x2048.Idx),
      out0_8 (iblk m c 0 t) (iblk m c 1 t) (iblk m c 2 t) (iblk m c 3 t) (iblk m c 4 t) (iblk m c 5 t) (iblk m c 6 t) (iblk m c 7 t) y = Gfun (((cfg0.win 8).blk t).view.emb y)) :
    (dats m 0 c).arrAt 8 cfg0.N = Gfun :=
  arr_eq m c Gfun fun t p q => by rw [hflush t (ix2 p q), emb8]

/-- THE RUN, READ: every weakly fair execution terminates with the result array at `Gfun c` on device `c` and the
    argument arrays unchanged. -/
theorem run (Gfun : Dev nD → S4096x2048.Idx → EReal)
    (hpt : ∀ (c : Dev nD) (t : Fin cfg0.N) (p : Fin 128) (q : Fin 2048),
      out0_8 (iblk m c 0 t) (iblk m c 1 t) (iblk m c 2 t) (iblk m c 3 t) (iblk m c 4 t) (iblk m c 5 t) (iblk m c 6 t) (iblk m c 7 t) (ix2 p q) = Gfun c (ix2 (rowAt t p) q)) :
    θ_run defs (onTc (τ := τ) (main (F := Ideal))) ⟨m, fun _ => 0, ρ⟩ fun r => ∀ c : Dev nD,
      r.2.mem ((c : Thread nD τ).loc main_v6) = Gfun c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (arr_eq m c (Gfun c) (hpt c)), (h c).2⟩)
    (Cert.KernelIdeal.Value.run_blocks m ρ)

end Cert.Cgru.Blocks

end
-- ==== Proof.RefPieces.lean ====
/-
  Two-by-two block matrices and joined vectors, read at an index.

  A complex matrix R + iI acts on a real vector (re, im) as the real block matrix
  [[R, -I], [I, R]].  The reference builds that matrix from four 1024×1024 pieces by
  joining two pairs side by side (along the columns) and stacking the two results (along
  the rows).  Here: such a matrix at row k and column c is the piece that the position
  (k below or past 1024, c below or past 1024) selects, at the position inside the piece.
  Likewise a vector of length 2048 joined from two of length 1024.

  Every statement takes the position inside the piece as a separate variable with an
  equation between the values, so that it can be used with any spelling of the index.
-/
import Idealize.ShloMosaic.Lib.Pipeline.Value
import Idealize.ShloMosaic.Lib.ValueIdx

noncomputable section

namespace Cert.Cgru.RefRead

open Idealize.ShloMosaic Idealize.ShloMosaic.ValueIdx

variable {α : Type}

/-- A 1024×1024 piece. -/
abbrev Sq : Shape := ⟨2, ![1024, 1024]⟩
/-- Two pieces side by side. -/
abbrev Wide : Shape := ⟨2, ![1024, 2048]⟩
/-- Two such rows of pieces stacked. -/
abbrev Big : Shape := ⟨2, ![2048, 2048]⟩
/-- A vector of length 1024. -/
abbrev V1 : Shape := ⟨1, ![1024]⟩
/-- Two such vectors joined. -/
abbrev V2 : Shape := ⟨1, ![2048]⟩

/-! ## Indices with equal coordinates -/

/-- Two matrix indices with the same row and the same column are equal. -/
theorem idx2_ext {n0 n1 : Nat} (f g : (⟨2, ![n0, n1]⟩ : Shape).Idx) (h0 : (f 0).val = (g 0).val)
    (h1 : (f 1).val = (g 1).val) : f = g :=
  funext fun a => match a with
    | ⟨0, _⟩ => Fin.ext h0
    | ⟨1, _⟩ => Fin.ext h1

/-- Two vector indices with the same position are equal. -/
theorem idx1_ext {n : Nat} (f g : (⟨1, ![n]⟩ : Shape).Idx) (h0 : (f 0).val = (g 0).val) : f = g :=
  funext fun a => match a with
    | ⟨0, _⟩ => Fin.ext h0

/-! ## Two pieces side by side -/

/-- A column below 1024 reads the left piece. -/
theorem cols_left (A B : Sq.Idx → α) (h : Shape.Concatenates [Sq, Sq] Wide 1)
    (k : Fin 1024) (c : Fin 2048) (c' : Fin 1024) (hc : c.val = c'.val) :
    concatenate Wide 1 [⟨Sq, A⟩, ⟨Sq, B⟩] h (ix2 k c) = A (ix2 k c') :=
  concatenate_pair_apply_left 1 A B h (ix2 k c) rfl (ix2 k c') (fun b => match b with
    | ⟨0, _⟩ => rfl
    | ⟨1, _⟩ => hc.symm)

/-- A column at or past 1024 reads the right piece, 1024 columns to the left. -/
theorem cols_right (A B : Sq.Idx → α) (h : Shape.Concatenates [Sq, Sq] Wide 1)
    (k : Fin 1024) (c : Fin 2048) (c' : Fin 1024) (hc : c.val = 1024 + c'.val) :
    concatenate Wide 1 [⟨Sq, A⟩, ⟨Sq, B⟩] h (ix2 k c) = B (ix2 k c') :=
  concatenate_pair_apply_right 1 A B h (ix2 k c) rfl rfl (ix2 k c')
    (fun b => match b with
      | ⟨0, _⟩ => fun _ => rfl
      | ⟨1, _⟩ => fun hne => absurd (Fin.ext rfl) hne)
    (by show c'.val + 1024 = c.val; omega)

/-! ## Two rows of pieces stacked -/

/-- A row below 1024 reads the upper part. -/
theorem rows_top (P Q : Wide.Idx → α) (h : Shape.Concatenates [Wide, Wide] Big 0)
    (k : Fin 2048) (c : Fin 2048) (k' : Fin 1024) (hk : k.val = k'.val) :
    concatenate Big 0 [⟨Wide, P⟩, ⟨Wide, Q⟩] h (ix2 k c) = P (ix2 k' c) :=
  concatenate_pair_apply_left 0 P Q h (ix2 k c) rfl (ix2 k' c) (fun b => match b with
    | ⟨0, _⟩ => hk.symm
    | ⟨1, _⟩ => rfl)

/-- A row at or past 1024 reads the lower part, 1024 rows up. -/
theorem rows_bot (P Q : Wide.Idx → α) (h : Shape.Concatenates [Wide, Wide] Big 0)
    (k : Fin 2048) (c : Fin 2048) (k' : Fin 1024) (hk : k.val = 1024 + k'.val) :
    concatenate Big 0 [⟨Wide, P⟩, ⟨Wide, Q⟩] h (ix2 k c) = Q (ix2 k' c) :=
  concatenate_pair_apply_right 0 P Q h (ix2 k c) rfl rfl (ix2 k' c)
    (fun b => match b with
      | ⟨0, _⟩ => fun hne => absurd (Fin.ext rfl) hne
      | ⟨1, _⟩ => fun _ => rfl)
    (by show k'.val + 1024 = k.val; omega)

/-! ## The block matrix [[A, B], [C, D]] -/

/-- Four pieces as one 2048×2048 matrix: A and B side by side over C and D side by side. -/
def block (h1 : Shape.Concatenates [Sq, Sq] Wide 1) (h0 : Shape.Concatenates [Wide, Wide] Big 0)
    (A B C D : Sq.Idx → α) : Big.Idx → α :=
  concatenate Big 0 [⟨Wide, concatenate Wide 1 [⟨Sq, A⟩, ⟨Sq, B⟩] h1⟩,
    ⟨Wide, concatenate Wide 1 [⟨Sq, C⟩, ⟨Sq, D⟩] h1⟩] h0

variable (h1 : Shape.Concatenates [Sq, Sq] Wide 1) (h0 : Shape.Concatenates [Wide, Wide] Big 0)
  (A B C D : Sq.Idx → α) (k c : Fin 2048) (k' c' : Fin 1024)

/-- Upper left. -/
theorem block_ul (hk : k.val = k'.val) (hc : c.val = c'.val) :
    block h1 h0 A B C D (ix2 k c) = A (ix2 k' c') :=
  (rows_top _ _ h0 k c k' hk).trans (cols_left A B h1 k' c c' hc)

/-- Upper right. -/
theorem block_ur (hk : k.val = k'.val) (hc : c.val = 1024 + c'.val) :
    block h1 h0 A B C D (ix2 k c) = B (ix2 k' c') :=
  (rows_top _ _ h0 k c k' hk).trans (cols_right A B h1 k' c c' hc)

/-- Lower left. -/
theorem block_ll (hk : k.val = 1024 + k'.val) (hc : c.val = c'.val) :
    block h1 h0 A B C D (ix2 k c) = C (ix2 k' c') :=
  (rows_bot _ _ h0 k c k' hk).trans (cols_left C D h1 k' c c' hc)

/-- Lower right. -/
theorem block_lr (hk : k.val = 1024 + k'.val) (hc : c.val = 1024 + c'.val) :
    block h1 h0 A B C D (ix2 k c) = D (ix2 k' c') :=
  (rows_bot _ _ h0 k c k' hk).trans (cols_right C D h1 k' c c' hc)

/-! ## Two vectors joined -/

/-- A position below 1024 reads the first vector. -/
theorem join_lo (u v : V1.Idx → α) (h : Shape.Concatenates [V1, V1] V2 0)
    (c : Fin 2048) (c' : Fin 1024) (hc : c.val = c'.val) :
    concatenate V2 0 [⟨V1, u⟩, ⟨V1, v⟩] h (ix1 c) = u (ix1 c') :=
  concatenate_pair_apply_left 0 u v h (ix1 c) rfl (ix1 c') (fun b => match b with
    | ⟨0, _⟩ => hc.symm)

/-- A position at or past 1024 reads the second vector, 1024 places earlier. -/
theorem join_hi (u v : V1.Idx → α) (h : Shape.Concatenates [V1, V1] V2 0)
    (c : Fin 2048) (c' : Fin 1024) (hc : c.val = 1024 + c'.val) :
    concatenate V2 0 [⟨V1, u⟩, ⟨V1, v⟩] h (ix1 c) = v (ix1 c') :=
  concatenate_pair_apply_right 0 u v h (ix1 c) rfl rfl (ix1 c')
    (fun b => match b with
      | ⟨0, _⟩ => fun hne => absurd (Fin.ext rfl) hne)
    (by show c'.val + 1024 = c.val; omega)

end Cert.Cgru.RefRead

end
-- ==== Proof.RefRead.lean ====
/-
  The reference program read at one entry of its result.

  The reference computes the complex GRU cell over the joined columns: each gate's complex weight matrix R + iI is
  laid out as the real block matrix [[R, -I], [I, R]] (R and I column slices of the real and of the imaginary
  kernel), the real and imaginary bias halves are joined into one vector of length 2048, and every product is a
  contraction over the 2048 joined columns.  Read stage by stage at row b and column c, its result is the joined
  row computation of the specification at the rows b of the two state arrays: the update gate
  z = hsig ((x·Z + bz) + h·Zr), the reset gate r likewise, the candidate tanh ((x·Hm + bh) + (r * h)·Hr), and
  z * h + (1 - z) * candidate.  Nothing here needs the entries to be finite: it is reading only.
-/
import proofs.«104676_j23922967838776_2_alg».proof.Proof.Gen.ReferenceIdeal.Read
import proofs.«104676_j23922967838776_2_alg».proof.Proof.Spec
import proofs.«104676_j23922967838776_2_alg».proof.Proof.RefPieces

noncomputable section

open scoped BigOperators

namespace Cert.Cgru.RefRead

open Idealize.ShloMosaic Idealize.ShloMosaic.ValueIdx
open Cert.ReferenceIdeal Cert.ReferenceIdeal.Gen Cert.ReferenceIdeal.Read

/-- A [4096, 2048] state or input array. -/
abbrev ArrX := FVec Ideal (⟨2, ![4096, 2048]⟩ : Shape) .f32
/-- A [1024, 3072] kernel: three gates' column slices side by side. -/
abbrev ArrK := FVec Ideal (⟨2, ![1024, 3072]⟩ : Shape) .f32
/-- A bias of length 3072: three gates' slices. -/
abbrev ArrB := FVec Ideal (⟨1, ![3072]⟩ : Shape) .f32

/-! ## The column slices of the kernels and the slices of the biases -/

theorem s0 (A : ArrK) (k j : Fin 1024) : val_main_v0 (F := Ideal) A (ix2 k j) = A (ix2 k (col0 j)) :=
  (val_main_v0_apply (F := Ideal) A (ix2 k j)).trans (congrArg A (idx2_ext _ _ rfl rfl))
theorem s1 (A : ArrK) (k j : Fin 1024) : val_main_v1 (F := Ideal) A (ix2 k j) = A (ix2 k (col1 j)) :=
  (val_main_v1_apply (F := Ideal) A (ix2 k j)).trans (congrArg A (idx2_ext _ _ rfl rfl))
theorem s2 (A : ArrK) (k j : Fin 1024) : val_main_v2 (F := Ideal) A (ix2 k j) = A (ix2 k (col2 j)) :=
  (val_main_v2_apply (F := Ideal) A (ix2 k j)).trans (congrArg A (idx2_ext _ _ rfl rfl))
theorem s3 (A : ArrK) (k j : Fin 1024) : val_main_v3 (F := Ideal) A (ix2 k j) = A (ix2 k (col0 j)) :=
  (val_main_v3_apply (F := Ideal) A (ix2 k j)).trans (congrArg A (idx2_ext _ _ rfl rfl))
theorem s4 (A : ArrK) (k j : Fin 1024) : val_main_v4 (F := Ideal) A (ix2 k j) = A (ix2 k (col1 j)) :=
  (val_main_v4_apply (F := Ideal) A (ix2 k j)).trans (congrArg A (idx2_ext _ _ rfl rfl))
theorem s5 (A : ArrK) (k j : Fin 1024) : val_main_v5 (F := Ideal) A (ix2 k j) = A (ix2 k (col2 j)) :=
  (val_main_v5_apply (F := Ideal) A (ix2 k j)).trans (congrArg A (idx2_ext _ _ rfl rfl))
theorem s6 (A : ArrK) (k j : Fin 1024) : val_main_v6 (F := Ideal) A (ix2 k j) = A (ix2 k (col0 j)) :=
  (val_main_v6_apply (F := Ideal) A (ix2 k j)).trans (congrArg A (idx2_ext _ _ rfl rfl))
theorem s7 (A : ArrK) (k j : Fin 1024) : val_main_v7 (F := Ideal) A (ix2 k j) = A (ix2 k (col1 j)) :=
  (val_main_v7_apply (F := Ideal) A (ix2 k j)).trans (congrArg A (idx2_ext _ _ rfl rfl))
theorem s8 (A : ArrK) (k j : Fin 1024) : val_main_v8 (F := Ideal) A (ix2 k j) = A (ix2 k (col2 j)) :=
  (val_main_v8_apply (F := Ideal) A (ix2 k j)).trans (congrArg A (idx2_ext _ _ rfl rfl))
theorem s9 (A : ArrK) (k j : Fin 1024) : val_main_v9 (F := Ideal) A (ix2 k j) = A (ix2 k (col0 j)) :=
  (val_main_v9_apply (F := Ideal) A (ix2 k j)).trans (congrArg A (idx2_ext _ _ rfl rfl))
theorem s10 (A : ArrK) (k j : Fin 1024) : val_main_v10 (F := Ideal) A (ix2 k j) = A (ix2 k (col1 j)) :=
  (val_main_v10_apply (F := Ideal) A (ix2 k j)).trans (congrArg A (idx2_ext _ _ rfl rfl))
theorem s11 (A : ArrK) (k j : Fin 1024) : val_main_v11 (F := Ideal) A (ix2 k j) = A (ix2 k (col2 j)) :=
  (val_main_v11_apply (F := Ideal) A (ix2 k j)).trans (congrArg A (idx2_ext _ _ rfl rfl))

theorem t12 (B : ArrB) (j : Fin 1024) : val_main_v12 (F := Ideal) B (ix1 j) = B (ix1 (col0 j)) :=
  (val_main_v12_apply (F := Ideal) B (ix1 j)).trans (congrArg B (idx1_ext _ _ rfl))
theorem t13 (B : ArrB) (j : Fin 1024) : val_main_v13 (F := Ideal) B (ix1 j) = B (ix1 (col1 j)) :=
  (val_main_v13_apply (F := Ideal) B (ix1 j)).trans (congrArg B (idx1_ext _ _ rfl))
theorem t14 (B : ArrB) (j : Fin 1024) : val_main_v14 (F := Ideal) B (ix1 j) = B (ix1 (col2 j)) :=
  (val_main_v14_apply (F := Ideal) B (ix1 j)).trans (congrArg B (idx1_ext _ _ rfl))
theorem t15 (B : ArrB) (j : Fin 1024) : val_main_v15 (F := Ideal) B (ix1 j) = B (ix1 (col0 j)) :=
  (val_main_v15_apply (F := Ideal) B (ix1 j)).trans (congrArg B (idx1_ext _ _ rfl))
theorem t16 (B : ArrB) (j : Fin 1024) : val_main_v16 (F := Ideal) B (ix1 j) = B (ix1 (col1 j)) :=
  (val_main_v16_apply (F := Ideal) B (ix1 j)).trans (congrArg B (idx1_ext _ _ rfl))
theorem t17 (B : ArrB) (j : Fin 1024) : val_main_v17 (F := Ideal) B (ix1 j) = B (ix1 (col2 j)) :=
  (val_main_v17_apply (F := Ideal) B (ix1 j)).trans (congrArg B (idx1_ext _ _ rfl))

/-! ## The block matrix and the joined bias, against the specification's -/

/-- The block matrix [[R, -I], [I, R]] of two pieces is the specification's, entry by entry. -/
theorem block_cat (h1 : Shape.Concatenates [Sq, Sq] Wide 1) (h0 : Shape.Concatenates [Wide, Wide] Big 0)
    (R I : Sq.Idx → EReal) (Rm Im : Mat) (hR : ∀ k j, R (ix2 k j) = Rm k j) (hI : ∀ k j, I (ix2 k j) = Im k j)
    (k c : Fin 2048) :
    block h1 h0 R (fun i => -(I i)) I R (ix2 k c) = cat Rm Im k c := by
  unfold cat
  by_cases hk : k.val < 1024
  · by_cases hc : c.val < 1024
    · rw [dif_pos hk, dif_pos hc]
      exact (block_ul h1 h0 _ _ _ _ k c ⟨k.val, hk⟩ ⟨c.val, hc⟩ rfl rfl).trans (hR _ _)
    · rw [dif_pos hk, dif_neg hc]
      exact (block_ur h1 h0 _ _ _ _ k c ⟨k.val, hk⟩ ⟨c.val - 1024, by have := c.isLt; omega⟩ rfl
        (by show c.val = 1024 + (c.val - 1024); omega)).trans (congrArg (fun x : EReal => -x) (hI _ _))
  · by_cases hc : c.val < 1024
    · rw [dif_neg hk, dif_pos hc]
      exact (block_ll h1 h0 _ _ _ _ k c ⟨k.val - 1024, by have := k.isLt; omega⟩ ⟨c.val, hc⟩
        (by show k.val = 1024 + (k.val - 1024); omega) rfl).trans (hI _ _)
    · rw [dif_neg hk, dif_neg hc]
      exact (block_lr h1 h0 _ _ _ _ k c ⟨k.val - 1024, by have := k.isLt; omega⟩
        ⟨c.val - 1024, by have := c.isLt; omega⟩ (by show k.val = 1024 + (k.val - 1024); omega)
        (by show c.val = 1024 + (c.val - 1024); omega)).trans (hR _ _)

/-- Two bias halves joined are the specification's joined row, entry by entry. -/
theorem vec_join (h : Shape.Concatenates [V1, V1] V2 0) (u v : V1.Idx → EReal) (a b : Row)
    (hu : ∀ j, u (ix1 j) = a j) (hv : ∀ j, v (ix1 j) = b j) (c : Fin 2048) :
    concatenate V2 0 [⟨V1, u⟩, ⟨V1, v⟩] h (ix1 c) = join a b c := by
  unfold join
  by_cases hc : c.val < 1024
  · rw [dif_pos hc]
    exact (join_lo u v h c ⟨c.val, hc⟩ rfl).trans (hu _)
  · rw [dif_neg hc]
    exact (join_hi u v h c ⟨c.val - 1024, by have := c.isLt; omega⟩
      (by show c.val = 1024 + (c.val - 1024); omega)).trans (hv _)

/-! ## The six block matrices of the reference -/

theorem mat_z (R I : ArrK) (k c : Fin 2048) :
    val_main_v21 (F := Ideal) R I (ix2 k c)
      = cat (fun k j => R (ix2 k (col0 j))) (fun k j => I (ix2 k (col0 j))) k c :=
  block_cat _ _ (val_main_v0 (F := Ideal) R) (val_main_v3 (F := Ideal) I) _ _ (fun k j => s0 R k j)
    (fun k j => s3 I k j) k c
theorem mat_r (R I : ArrK) (k c : Fin 2048) :
    val_main_v30 (F := Ideal) R I (ix2 k c)
      = cat (fun k j => R (ix2 k (col1 j))) (fun k j => I (ix2 k (col1 j))) k c :=
  block_cat _ _ (val_main_v1 (F := Ideal) R) (val_main_v4 (F := Ideal) I) _ _ (fun k j => s1 R k j)
    (fun k j => s4 I k j) k c
theorem mat_h (R I : ArrK) (k c : Fin 2048) :
    val_main_v39 (F := Ideal) R I (ix2 k c)
      = cat (fun k j => R (ix2 k (col2 j))) (fun k j => I (ix2 k (col2 j))) k c :=
  block_cat _ _ (val_main_v2 (F := Ideal) R) (val_main_v5 (F := Ideal) I) _ _ (fun k j => s2 R k j)
    (fun k j => s5 I k j) k c
theorem mat_zr (R I : ArrK) (k c : Fin 2048) :
    val_main_v48 (F := Ideal) R I (ix2 k c)
      = cat (fun k j => R (ix2 k (col0 j))) (fun k j => I (ix2 k (col0 j))) k c :=
  block_cat _ _ (val_main_v6 (F := Ideal) R) (val_main_v9 (F := Ideal) I) _ _ (fun k j => s6 R k j)
    (fun k j => s9 I k j) k c
theorem mat_rr (R I : ArrK) (k c : Fin 2048) :
    val_main_v59 (F := Ideal) R I (ix2 k c)
      = cat (fun k j => R (ix2 k (col1 j))) (fun k j => I (ix2 k (col1 j))) k c :=
  block_cat _ _ (val_main_v7 (F := Ideal) R) (val_main_v10 (F := Ideal) I) _ _ (fun k j => s7 R k j)
    (fun k j => s10 I k j) k c
theorem mat_hr (R I : ArrK) (k c : Fin 2048) :
    val_main_v71 (F := Ideal) R I (ix2 k c)
      = cat (fun k j => R (ix2 k (col2 j))) (fun k j => I (ix2 k (col2 j))) k c :=
  block_cat _ _ (val_main_v8 (F := Ideal) R) (val_main_v11 (F := Ideal) I) _ _ (fun k j => s8 R k j)
    (fun k j => s11 I k j) k c

/-! ## The three joined biases, broadcast over the rows -/

theorem bias_z (P Q : ArrB) (b : Fin 4096) (c : Fin 2048) :
    val_main_v25 (F := Ideal) P Q (ix2 b c)
      = join (fun j => P (ix1 (col0 j))) (fun j => Q (ix1 (col0 j))) c := by
  rw [val_main_v25_apply, val_main_v24_apply,
    show idx_main_v24 (idx_main_v25 (ix2 b c)) = ix1 c from idx1_ext _ _ rfl]
  exact vec_join _ (val_main_v12 (F := Ideal) P) (val_main_v15 (F := Ideal) Q) _ _ (fun j => t12 P j)
    (fun j => t15 Q j) c
theorem bias_r (P Q : ArrB) (b : Fin 4096) (c : Fin 2048) :
    val_main_v34 (F := Ideal) P Q (ix2 b c)
      = join (fun j => P (ix1 (col1 j))) (fun j => Q (ix1 (col1 j))) c := by
  rw [val_main_v34_apply, val_main_v33_apply,
    show idx_main_v33 (idx_main_v34 (ix2 b c)) = ix1 c from idx1_ext _ _ rfl]
  exact vec_join _ (val_main_v13 (F := Ideal) P) (val_main_v16 (F := Ideal) Q) _ _ (fun j => t13 P j)
    (fun j => t16 Q j) c
theorem bias_h (P Q : ArrB) (b : Fin 4096) (c : Fin 2048) :
    val_main_v43 (F := Ideal) P Q (ix2 b c)
      = join (fun j => P (ix1 (col2 j))) (fun j => Q (ix1 (col2 j))) c := by
  rw [val_main_v43_apply, val_main_v42_apply,
    show idx_main_v42 (idx_main_v43 (ix2 b c)) = ix1 c from idx1_ext _ _ rfl]
  exact vec_join _ (val_main_v14 (F := Ideal) P) (val_main_v17 (F := Ideal) Q) _ _ (fun j => t14 P j)
    (fun j => t17 Q j) c

/-! ## A contraction over the 2048 joined columns -/

/-- A sum over the joined columns of a left array's row b against a right array's column c, with the two
    families of operand indices named by the caller, is the specification's row-by-column product. -/
theorem dot_read (L : ArrX) (M : FVec Ideal (⟨2, ![2048, 2048]⟩ : Shape) .f32) (a : Row2)
    (W : Fin 2048 → Fin 2048 → EReal) (b : Fin 4096) (c : Fin 2048)
    (li : Fin 2048 → (⟨2, ![4096, 2048]⟩ : Shape).Idx) (ri : Fin 2048 → (⟨2, ![2048, 2048]⟩ : Shape).Idx)
    (hli : ∀ k, li k = ix2 b k) (hri : ∀ k, ri k = ix2 k c)
    (hL : ∀ k, L (ix2 b k) = a k) (hM : ∀ k, M (ix2 k c) = W k c) :
    (∑ k : Fin 2048, L (li k) * M (ri k)) = dot2 a W c := by
  unfold dot2
  exact Finset.sum_congr rfl fun k _ => by rw [hli k, hri k, hL k, hM k]

theorem dot_z (L : ArrX) (R I : ArrK) (b : Fin 4096) (c : Fin 2048) :
    val_main_v22 (F := Ideal) L R I (ix2 b c)
      = dot2 (row L b) (cat (fun k j => R (ix2 k (col0 j))) (fun k j => I (ix2 k (col0 j)))) c :=
  (val_main_v22_apply L R I (ix2 b c)).trans
    (dot_read L (val_main_v21 (F := Ideal) R I) _ _ b c (lidx_main_v22 (ix2 b c)) (ridx_main_v22 (ix2 b c))
      (fun k => idx2_ext _ _ rfl rfl) (fun k => idx2_ext _ _ rfl rfl) (fun k => rfl) (fun k => mat_z R I k c))
theorem dot_r (L : ArrX) (R I : ArrK) (b : Fin 4096) (c : Fin 2048) :
    val_main_v31 (F := Ideal) L R I (ix2 b c)
      = dot2 (row L b) (cat (fun k j => R (ix2 k (col1 j))) (fun k j => I (ix2 k (col1 j)))) c :=
  (val_main_v31_apply L R I (ix2 b c)).trans
    (dot_read L (val_main_v30 (F := Ideal) R I) _ _ b c (lidx_main_v31 (ix2 b c)) (ridx_main_v31 (ix2 b c))
      (fun k => idx2_ext _ _ rfl rfl) (fun k => idx2_ext _ _ rfl rfl) (fun k => rfl) (fun k => mat_r R I k c))
theorem dot_h (L : ArrX) (R I : ArrK) (b : Fin 4096) (c : Fin 2048) :
    val_main_v40 (F := Ideal) L R I (ix2 b c)
      = dot2 (row L b) (cat (fun k j => R (ix2 k (col2 j))) (fun k j => I (ix2 k (col2 j)))) c :=
  (val_main_v40_apply L R I (ix2 b c)).trans
    (dot_read L (val_main_v39 (F := Ideal) R I) _ _ b c (lidx_main_v40 (ix2 b c)) (ridx_main_v40 (ix2 b c))
      (fun k => idx2_ext _ _ rfl rfl) (fun k => idx2_ext _ _ rfl rfl) (fun k => rfl) (fun k => mat_h R I k c))
theorem dot_zr (L : ArrX) (R I : ArrK) (b : Fin 4096) (c : Fin 2048) :
    val_main_v49 (F := Ideal) L R I (ix2 b c)
      = dot2 (row L b) (cat (fun k j => R (ix2 k (col0 j))) (fun k j => I (ix2 k (col0 j)))) c :=
  (val_main_v49_apply L R I (ix2 b c)).trans
    (dot_read L (val_main_v48 (F := Ideal) R I) _ _ b c (lidx_main_v49 (ix2 b c)) (ridx_main_v49 (ix2 b c))
      (fun k => idx2_ext _ _ rfl rfl) (fun k => idx2_ext _ _ rfl rfl) (fun k => rfl) (fun k => mat_zr R I k c))
theorem dot_rr (L : ArrX) (R I : ArrK) (b : Fin 4096) (c : Fin 2048) :
    val_main_v60 (F := Ideal) L R I (ix2 b c)
      = dot2 (row L b) (cat (fun k j => R (ix2 k (col1 j))) (fun k j => I (ix2 k (col1 j)))) c :=
  (val_main_v60_apply L R I (ix2 b c)).trans
    (dot_read L (val_main_v59 (F := Ideal) R I) _ _ b c (lidx_main_v60 (ix2 b c)) (ridx_main_v60 (ix2 b c))
      (fun k => idx2_ext _ _ rfl rfl) (fun k => idx2_ext _ _ rfl rfl) (fun k => rfl) (fun k => mat_rr R I k c))

/-! ## The gates, the candidate and the result -/

section
variable (X H : ArrX) (A2 A3 A4 A5 : ArrK) (B6 B7 : ArrB) (b : Fin 4096) (c : Fin 2048)

/-- The update gate's argument: (x·Z + bz) + h·Zr. -/
theorem pre_z :
    val_main_v50 (F := Ideal) X H A2 A3 A4 A5 B6 B7 (ix2 b c)
      = (dot2 (row X b) (cat (wts A2 A3 A4 A5 B6 B7).Rz (wts A2 A3 A4 A5 B6 B7).Iz) c
          + join (wts A2 A3 A4 A5 B6 B7).rbz (wts A2 A3 A4 A5 B6 B7).ibz c)
        + dot2 (row H b) (cat (wts A2 A3 A4 A5 B6 B7).RRz (wts A2 A3 A4 A5 B6 B7).IRz) c := by
  rw [val_main_v50_apply, val_main_v26_apply, dot_z X A2 A3 b c, bias_z B6 B7 b c, dot_zr H A4 A5 b c]
  rfl

/-- The reset gate's argument: (x·Rm + br) + h·Rr. -/
theorem pre_r :
    val_main_v61 (F := Ideal) X H A2 A3 A4 A5 B6 B7 (ix2 b c)
      = (dot2 (row X b) (cat (wts A2 A3 A4 A5 B6 B7).Rr (wts A2 A3 A4 A5 B6 B7).Ir) c
          + join (wts A2 A3 A4 A5 B6 B7).rbr (wts A2 A3 A4 A5 B6 B7).ibr c)
        + dot2 (row H b) (cat (wts A2 A3 A4 A5 B6 B7).RRr (wts A2 A3 A4 A5 B6 B7).IRr) c := by
  rw [val_main_v61_apply, val_main_v35_apply, dot_r X A2 A3 b c, bias_r B6 B7 b c, dot_rr H A4 A5 b c]
  rfl

/-- The update gate: the hard sigmoid of its argument. -/
theorem gate_z :
    val_main_v55 (F := Ideal) X H A2 A3 A4 A5 B6 B7 (ix2 b c)
      = refZ hsig (wts A2 A3 A4 A5 B6 B7) (row X b) (row H b) c := by
  rw [val_main_v55_apply, val_main_call0_v4_apply, val_main_call0_v3_apply, val_main_cst_2_apply,
    val_main_call0_v2_apply, val_main_call0_v1_apply, val_main_call0_v0_apply, val_main_cst_1_apply,
    val_main_v54_apply, val_main_v52_apply, val_main_v51_apply, val_main_cst_apply,
    val_main_v53_apply, val_main_cst_0_apply, pre_z]
  rfl

/-- The reset gate: the hard sigmoid of its argument. -/
theorem gate_r :
    val_main_v66 (F := Ideal) X H A2 A3 A4 A5 B6 B7 (ix2 b c)
      = refR hsig (wts A2 A3 A4 A5 B6 B7) (row X b) (row H b) c := by
  rw [val_main_v66_apply, val_main_call1_v4_apply, val_main_call1_v3_apply, val_main_cst_6_apply,
    val_main_call1_v2_apply, val_main_call1_v1_apply, val_main_call1_v0_apply, val_main_cst_5_apply,
    val_main_v65_apply, val_main_v63_apply, val_main_v62_apply, val_main_cst_3_apply,
    val_main_v64_apply, val_main_cst_4_apply, pre_r]
  rfl

/-- The reset state r * h, one entry. -/
theorem reset_state :
    val_main_v67 (F := Ideal) X H A2 A3 A4 A5 B6 B7 (ix2 b c)
      = refR hsig (wts A2 A3 A4 A5 B6 B7) (row X b) (row H b) c * row H b c := by
  rw [val_main_v67_apply, gate_r]
  rfl

/-- The reset state against the candidate's recurrent block matrix. -/
theorem dot_hr :
    val_main_v72 (F := Ideal) X H A2 A3 A4 A5 B6 B7 (ix2 b c)
      = dot2 (fun k => refR hsig (wts A2 A3 A4 A5 B6 B7) (row X b) (row H b) k * row H b k)
          (cat (wts A2 A3 A4 A5 B6 B7).RRh (wts A2 A3 A4 A5 B6 B7).IRh) c :=
  (val_main_v72_apply X H A2 A3 A4 A5 B6 B7 (ix2 b c)).trans
    (dot_read (val_main_v67 (F := Ideal) X H A2 A3 A4 A5 B6 B7) (val_main_v71 (F := Ideal) A4 A5) _ _ b c
      (lidx_main_v72 (ix2 b c)) (ridx_main_v72 (ix2 b c)) (fun k => idx2_ext _ _ rfl rfl)
      (fun k => idx2_ext _ _ rfl rfl) (fun k => reset_state X H A2 A3 A4 A5 B6 B7 b k) (fun k => mat_hr A4 A5 k c))

/-- The candidate state: tanh ((x·Hm + bh) + (r * h)·Hr). -/
theorem cand :
    val_main_v74 (F := Ideal) X H A2 A3 A4 A5 B6 B7 (ix2 b c)
      = refHH hsig Ideal.tanh (wts A2 A3 A4 A5 B6 B7) (row X b) (row H b) c := by
  rw [val_main_v74_apply, val_main_v73_apply, val_main_v44_apply, dot_h X A2 A3 b c, bias_h B6 B7 b c, dot_hr]
  rfl

/-- The reference's result at row b, column c: z * h + (1 - z) * candidate over the joined columns. -/
theorem ref_row :
    val_main_v79 (F := Ideal) X H A2 A3 A4 A5 B6 B7 (ix2 b c)
      = refOut hsig Ideal.tanh cOne (wts A2 A3 A4 A5 B6 B7) (row X b) (row H b) c := by
  rw [val_main_v79_apply, val_main_v75_apply, val_main_v78_apply, val_main_v77_apply, val_main_v76_apply,
    val_main_cst_7_apply, gate_z, cand]
  rfl

end

/-- The same at any index of the result. -/
theorem ref_row_idx (X H : ArrX) (A2 A3 A4 A5 : ArrK) (B6 B7 : ArrB) (i : (⟨2, ![4096, 2048]⟩ : Shape).Idx) :
    val_main_v79 (F := Ideal) X H A2 A3 A4 A5 B6 B7 i
      = refOut hsig Ideal.tanh cOne (wts A2 A3 A4 A5 B6 B7) (row X (i 0)) (row H (i 0)) (i 1) := by
  obtain ⟨p, q, rfl⟩ : ∃ (p : Fin 4096) (q : Fin 2048), i = ix2 p q := ⟨i 0, i 1, eq_ix2 i⟩
  exact ref_row X H A2 A3 A4 A5 B6 B7 p q

end Cert.Cgru.RefRead

end
-- ==== Proof.Final.lean ====
/-
  The two programs' results are the specification's array.

  The kernel: the block a grid point stores is the tile's new state computed from the point's input blocks
  (the payload module); the blocks of `inputs` and `h_tm1` at point t are rows 128 t .. 128 t + 127 of the arrays,
  the kernel and bias blocks are the whole arrays (a change of float format and a reshape to one row, both the
  identity on entries), so the stored block is rows 128 t .. of the specification's array, and the 32 blocks cover it.
  The reference: its result read at (b, c) is the joined row computation on row b (the reference-read module), which
  on real data is the half-by-half computation (the bridge module).
-/
import proofs.«104676_j23922967838776_2_alg».proof.Proof.Payload
import proofs.«104676_j23922967838776_2_alg».proof.Proof.Blocks
import proofs.«104676_j23922967838776_2_alg».proof.Proof.RefRead

noncomputable section

namespace Cert.Cgru.Final

open Idealize.ShloMosaic Idealize.ShloMosaic.TcCoe Idealize.ShloMosaic.ValueIdx Idealize.SL.Sem Cert.Cgru

/-- The tile's new state from blocks that are rows of the arrays is the array's new state at those rows. -/
theorem GblkAt_rows (x0 x1 : Vec Ideal Cert.KernelIdeal.S128x2048 .f32) (x2 x3 x4 x5 : Vec Ideal Cert.KernelIdeal.S1024x3072 .bf16)
    (x6 x7 : Vec Ideal Cert.KernelIdeal.S1x3072 .f32)
    (X H : FVec Ideal (⟨2, ![4096, 2048]⟩ : Shape) .f32) (A2 A3 A4 A5 : FVec Ideal (⟨2, ![1024, 3072]⟩ : Shape) .f32)
    (B6 B7 : FVec Ideal (⟨1, ![3072]⟩ : Shape) .f32) (b : Fin 4096) (p : Fin 128)
    (h0 : ∀ k : Fin 2048, x0 (ix2 p k) = X (ix2 b k)) (h1 : ∀ k : Fin 2048, x1 (ix2 p k) = H (ix2 b k))
    (h2 : ∀ (k : Fin 1024) (j : Fin 3072), x2 (ix2 k j) = A2 (ix2 k j))
    (h3 : ∀ (k : Fin 1024) (j : Fin 3072), x3 (ix2 k j) = A3 (ix2 k j))
    (h4 : ∀ (k : Fin 1024) (j : Fin 3072), x4 (ix2 k j) = A4 (ix2 k j))
    (h5 : ∀ (k : Fin 1024) (j : Fin 3072), x5 (ix2 k j) = A5 (ix2 k j))
    (h6 : ∀ j : Fin 3072, x6 (ix2 (0 : Fin 1) j) = B6 (ix1 j)) (h7 : ∀ j : Fin 3072, x7 (ix2 (0 : Fin 1) j) = B7 (ix1 j))
    (q : Fin 2048) :
    Payload.GblkAt x0 x1 x2 x3 x4 x5 x6 x7 p q = Gat X H A2 A3 A4 A5 B6 B7 b q := by
  have hw : Payload.wB x2 x3 x4 x5 x6 x7 = wts A2 A3 A4 A5 B6 B7 := by
    unfold Payload.wB wts
    simp only [h2, h3, h4, h5, h6, h7]
  have e0l : (fun k => x0 (ix2 p (lo k))) = rowLo X b := funext fun k => h0 (lo k)
  have e0h : (fun k => x0 (ix2 p (hi k))) = rowHi X b := funext fun k => h0 (hi k)
  have e1l : (fun k => x1 (ix2 p (lo k))) = rowLo H b := funext fun k => h1 (lo k)
  have e1h : (fun k => x1 (ix2 p (hi k))) = rowHi H b := funext fun k => h1 (hi k)
  unfold Payload.GblkAt
  rw [hw, e0l, e0h, e1l, e1h]
  rfl

section Kernel

open Cert.KernelIdeal Cert.KernelIdeal.Gen

variable (m : (ℓ : Loc nD τ sig) → Buf (Elt Ideal) ℓ)

/-- The specification's array of the kernel's argument arrays on device `c`. -/
def Gm (c : Dev nD) : S4096x2048.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What grid point `t` stores at (p, q) is the specification's array at row 128 t + p, column q. -/
theorem point (c : Dev nD) (t : Fin cfg0.N) (p : Fin 128) (q : Fin 2048) :
    out0_8 (iblk m c 0 t) (iblk m c 1 t) (iblk m c 2 t) (iblk m c 3 t) (iblk m c 4 t) (iblk m c 5 t) (iblk m c 6 t) (iblk m c 7 t) (ix2 p q)
      = Gm m c (ix2 (Blocks.rowAt t p) q) := by
  rw [Payload.out_eq]
  exact GblkAt_rows (iblk m c 0 t) (iblk m c 1 t) (iblk m c 2 t) (iblk m c 3 t) (iblk m c 4 t) (iblk m c 5 t) (iblk m c 6 t) (iblk m c 7 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (Blocks.rowAt t p) p
    (fun k => Blocks.iblk0_apply m c t p k) (fun k => Blocks.iblk1_apply m c t p k)
    (fun k j => Blocks.iblk2_apply m c t k j) (fun k j => Blocks.iblk3_apply m c t k j)
    (fun k j => Blocks.iblk4_apply m c t k j) (fun k j => Blocks.iblk5_apply m c t k j)
    (fun j => Blocks.iblk6_apply m c t j) (fun j => Blocks.iblk7_apply m c t j) q

end Kernel

/-- On real data the reference's result is the specification's array. -/
theorem ref_final (X H : FVec Ideal (⟨2, ![4096, 2048]⟩ : Shape) .f32) (A2 A3 A4 A5 : FVec Ideal (⟨2, ![1024, 3072]⟩ : Shape) .f32)
    (B6 B7 : FVec Ideal (⟨1, ![3072]⟩ : Shape) .f32)
    (hX : ∀ i, IsReal (X i)) (hH : ∀ i, IsReal (H i)) (h3 : ∀ i, IsReal (A3 i)) (h5 : ∀ i, IsReal (A5 i)) :
    Cert.ReferenceIdeal.Read.val_main_v79 (F := Ideal) X H A2 A3 A4 A5 B6 B7 = G X H A2 A3 A4 A5 B6 B7 := by
  funext i
  obtain ⟨b, c, rfl⟩ : ∃ (b : Fin 4096) (c : Fin 2048), i = ix2 b c := ⟨i 0, i 1, eq_ix2 i⟩
  rw [RefRead.ref_row, refOut_eq_Gat X H A2 A3 A4 A5 B6 B7 hX hH h3 h5 b c]
  rfl

end Cert.Cgru.Final

end
-- ==== Proof.PreReal.lean ====
/-
  Every entry of the eight argument arrays is a real number, from the precondition.

  The precondition is the conjunction, over the eight arrays, of "every entry x has |x| < +∞": each conjunct is a
  reduction by `and`, over the whole array, of the comparison of |x| = max x (−x) with +∞. A reduction by `and` that
  came out 1 met only 1s, so the comparison holds at every index; and an extended real x with max x (−x) < ⊤ is
  neither infinity, that is, it is a real number.
-/
import proofs.«104676_j23922967838776_2_alg».proof.Defs
import proofs.«104676_j23922967838776_2_alg».proof.Proof.Spec
import Idealize.ShloMosaic.Lib.ReduceAll
import Idealize.ShloMosaic.Lib.ValueIdx

noncomputable section

namespace Cert.Cgru.PreReal

open Idealize.ShloMosaic Idealize.ShloMosaic.ValueIdx Idealize.SL.Sem

/-- The scalar shape has one index. -/
instance : Subsingleton Cert.Pre_finite_inputs.S_.Idx := ⟨fun a b => funext fun d => d.elim0⟩

/-- An extended real whose absolute value is below `+∞` is a real number. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- One conjunct of the precondition, read back: if the reduction by `and` of `|x| < +∞` over an array is 1, every
    entry of the array is a real number. -/
theorem all_real {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (h0 : 0 < Cert.Pre_finite_inputs.S_.numel)
    (h : Host.reduce IntOp.andi
        (cmpf .olt (Host.absf x) (broadcastInDim S ![] hb (constant (F := Ideal) Cert.Pre_finite_inputs.S_ .f32 0x7F800000#32)))
        (constantI Cert.Pre_finite_inputs.S_ 1 1#1) hr h0 ix0 = 1#1) (i : S.Idx) : IsReal (x i) :=
  isReal_of_abs_lt (x i) (Host.reduce_andi_all _ _ hr h0 ix0 h i)

variable [Cert.Pre_finite_inputs.Facts]

/-- THE PRECONDITION DECODED, over any eight arrays of the arguments' shapes: if `finite_inputs` of them is 1, every
    entry of every one of them is a real number. -/
theorem real_of_finite
    (x0 x1 : FVec Ideal Cert.Pre_finite_inputs.S4096x2048 .f32)
    (x2 x3 x4 x5 : FVec Ideal Cert.Pre_finite_inputs.S1024x3072 .f32)
    (x6 x7 : FVec Ideal Cert.Pre_finite_inputs.S3072 .f32)
    (h : Cert.Pre_finite_inputs.fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) ∧ (∀ i, IsReal (x6 i)) ∧ (∀ i, IsReal (x7 i)) := by
  have e := congrFun h ix0
  dsimp only [Cert.Pre_finite_inputs.fn, Cert.Pre_finite_inputs.fn_part1, Cert.Pre_finite_inputs.fn_part2, andi] at e
  simp only [IntOp.andi_eq_one] at e
  obtain ⟨⟨⟨⟨⟨⟨⟨e0, e1⟩, e2⟩, e3⟩, e4⟩, e5⟩, e6⟩, e7⟩ := e
  exact ⟨all_real x0 _ _ _ e0, all_real x1 _ _ _ e1, all_real x2 _ _ _ e2, all_real x3 _ _ _ e3,
    all_real x4 _ _ _ e4, all_real x5 _ _ _ e5, all_real x6 _ _ _ e6, all_real x7 _ _ _ e7⟩

variable (m : (ℓ : Loc Cert.KernelIdeal.nD Cert.KernelIdeal.τ Cert.KernelIdeal.sig) → Buf (Elt Ideal) ℓ)

/-- Under the kernel's precondition every entry of each of its eight argument arrays, on every device, is a real number. -/
theorem real_args (h : Cert.Pre_KernelIdeal m) (c : Dev Cert.KernelIdeal.nD) :
    (∀ i : Cert.KernelIdeal.S4096x2048.Idx, IsReal (m ((c.tc : Thread Cert.KernelIdeal.nD Cert.KernelIdeal.τ).loc Cert.KernelIdeal.main_arg0) i))
      ∧ (∀ i : Cert.KernelIdeal.S4096x2048.Idx, IsReal (m ((c.tc : Thread Cert.KernelIdeal.nD Cert.KernelIdeal.τ).loc Cert.KernelIdeal.main_arg1) i))
      ∧ (∀ i : Cert.KernelIdeal.S1024x3072.Idx, IsReal (m ((c.tc : Thread Cert.KernelIdeal.nD Cert.KernelIdeal.τ).loc Cert.KernelIdeal.main_arg2) i))
      ∧ (∀ i : Cert.KernelIdeal.S1024x3072.Idx, IsReal (m ((c.tc : Thread Cert.KernelIdeal.nD Cert.KernelIdeal.τ).loc Cert.KernelIdeal.main_arg3) i))
      ∧ (∀ i : Cert.KernelIdeal.S1024x3072.Idx, IsReal (m ((c.tc : Thread Cert.KernelIdeal.nD Cert.KernelIdeal.τ).loc Cert.KernelIdeal.main_arg4) i))
      ∧ (∀ i : Cert.KernelIdeal.S1024x3072.Idx, IsReal (m ((c.tc : Thread Cert.KernelIdeal.nD Cert.KernelIdeal.τ).loc Cert.KernelIdeal.main_arg5) i))
      ∧ (∀ i : Cert.KernelIdeal.S3072.Idx, IsReal (m ((c.tc : Thread Cert.KernelIdeal.nD Cert.KernelIdeal.τ).loc Cert.KernelIdeal.main_arg6) i))
      ∧ (∀ i : Cert.KernelIdeal.S3072.Idx, IsReal (m ((c.tc : Thread Cert.KernelIdeal.nD Cert.KernelIdeal.τ).loc Cert.KernelIdeal.main_arg7) i)) :=
  real_of_finite _ _ _ _ _ _ _ _ (h c)

/-- The same, one argument at a time. -/
theorem real_arg0 (h : Cert.Pre_KernelIdeal m) (c : Dev Cert.KernelIdeal.nD) (i : Cert.KernelIdeal.S4096x2048.Idx) :
    IsReal (m ((c.tc : Thread Cert.KernelIdeal.nD Cert.KernelIdeal.τ).loc Cert.KernelIdeal.main_arg0) i) := (real_args m h c).1 i
theorem real_arg1 (h : Cert.Pre_KernelIdeal m) (c : Dev Cert.KernelIdeal.nD) (i : Cert.KernelIdeal.S4096x2048.Idx) :
    IsReal (m ((c.tc : Thread Cert.KernelIdeal.nD Cert.KernelIdeal.τ).loc Cert.KernelIdeal.main_arg1) i) := (real_args m h c).2.1 i
theorem real_arg2 (h : Cert.Pre_KernelIdeal m) (c : Dev Cert.KernelIdeal.nD) (i : Cert.KernelIdeal.S1024x3072.Idx) :
    IsReal (m ((c.tc : Thread Cert.KernelIdeal.nD Cert.KernelIdeal.τ).loc Cert.KernelIdeal.main_arg2) i) := (real_args m h c).2.2.1 i
theorem real_arg3 (h : Cert.Pre_KernelIdeal m) (c : Dev Cert.KernelIdeal.nD) (i : Cert.KernelIdeal.S1024x3072.Idx) :
    IsReal (m ((c.tc : Thread Cert.KernelIdeal.nD Cert.KernelIdeal.τ).loc Cert.KernelIdeal.main_arg3) i) := (real_args m h c).2.2.2.1 i
theorem real_arg4 (h : Cert.Pre_KernelIdeal m) (c : Dev Cert.KernelIdeal.nD) (i : Cert.KernelIdeal.S1024x3072.Idx) :
    IsReal (m ((c.tc : Thread Cert.KernelIdeal.nD Cert.KernelIdeal.τ).loc Cert.KernelIdeal.main_arg4) i) := (real_args m h c).2.2.2.2.1 i
theorem real_arg5 (h : Cert.Pre_KernelIdeal m) (c : Dev Cert.KernelIdeal.nD) (i : Cert.KernelIdeal.S1024x3072.Idx) :
    IsReal (m ((c.tc : Thread Cert.KernelIdeal.nD Cert.KernelIdeal.τ).loc Cert.KernelIdeal.main_arg5) i) := (real_args m h c).2.2.2.2.2.1 i
theorem real_arg6 (h : Cert.Pre_KernelIdeal m) (c : Dev Cert.KernelIdeal.nD) (i : Cert.KernelIdeal.S3072.Idx) :
    IsReal (m ((c.tc : Thread Cert.KernelIdeal.nD Cert.KernelIdeal.τ).loc Cert.KernelIdeal.main_arg6) i) := (real_args m h c).2.2.2.2.2.2.1 i
theorem real_arg7 (h : Cert.Pre_KernelIdeal m) (c : Dev Cert.KernelIdeal.nD) (i : Cert.KernelIdeal.S3072.Idx) :
    IsReal (m ((c.tc : Thread Cert.KernelIdeal.nD Cert.KernelIdeal.τ).loc Cert.KernelIdeal.main_arg7) i) := (real_args m h c).2.2.2.2.2.2.2 i

end Cert.Cgru.PreReal

end
-- ==== Proof.lean ====
/-
  A complex-valued GRU cell: the kernel against its plain reference, over the extended reals.

  Both programs compute, for each of 4096 rows, the new state
      h' = z · h + (1 − z) · tanh(W_h x + b_h + U_h (r · h)),   z = σ(W_z x + b_z + U_z h),   r = σ(W_r x + b_r + U_r h),
  with σ the hard sigmoid min 1 (max 0 (0.2 · + 0.5)), where a row is a complex vector stored as its real half followed
  by its imaginary half and every matrix acts as the complex product (a_r, a_i) ↦ (a_r·R + a_i·I, a_i·R − a_r·I).
  The reference builds the 2048 × 2048 block matrix [[R, −I], [I, R]] and contracts over all 2048 joined columns; the
  kernel contracts the halves separately, 1024 terms at a time, tile by tile of 128 rows, and stores the real half into
  columns 0..1023 and the imaginary half into columns 1024..2047. The two agree term by term once a 2048-term sum is
  split into its halves, except that the reference's imaginary half holds ∑ a_r·(−I) where the kernel subtracts ∑ a_r·I:
  negation commutes with a finite sum of extended reals only when the terms are real, which is where the precondition
  (every input finite) is used; the hard sigmoid's values lie between 0 and 1, so the reset state r · h is real as well.

  The modules: Spec (the result as one function of the eight arrays, in both arrangements), Bridge (the arrangements
  agree on real data), Payload (what a grid point stores, index by index), Blocks (from the 32 stored blocks to the
  array, and the input blocks as rows of the arrays), RefPieces / RefRead (the reference's result read at an index),
  PreReal (the precondition makes every entry real), Final (both results are the specification's array).
  The three frames are the generated ones; the idealization changed no operation, so `preserves` has nothing to state.
-/
import proofs.«104676_j23922967838776_2_alg».proof.Defs
import proofs.«104676_j23922967838776_2_alg».proof.Proof.Gen.Kernel
import proofs.«104676_j23922967838776_2_alg».proof.Proof.Gen.Kernel.Skeleton
import proofs.«104676_j23922967838776_2_alg».proof.Proof.Gen.Kernel.Launch
import proofs.«104676_j23922967838776_2_alg».proof.Proof.Gen.Kernel.Points
import proofs.«104676_j23922967838776_2_alg».proof.Proof.Gen.Kernel.Frame
import proofs.«104676_j23922967838776_2_alg».proof.Proof.Gen.KernelIdeal
import proofs.«104676_j23922967838776_2_alg».proof.Proof.Gen.KernelIdeal.Skeleton
import proofs.«104676_j23922967838776_2_alg».proof.Proof.Gen.KernelIdeal.Launch
import proofs.«104676_j23922967838776_2_alg».proof.Proof.Gen.KernelIdeal.Points
import proofs.«104676_j23922967838776_2_alg».proof.Proof.Gen.KernelIdeal.Frame
import proofs.«104676_j23922967838776_2_alg».proof.Proof.Gen.ReferenceIdeal
import proofs.«104676_j23922967838776_2_alg».proof.Proof.Gen.Pre_finite_inputs
import proofs.«104676_j23922967838776_2_alg».proof.Proof.Gen.KernelIdeal.Value
import proofs.«104676_j23922967838776_2_alg».proof.Proof.Gen.ReferenceIdeal.Run
import proofs.«104676_j23922967838776_2_alg».proof.Proof.Gen.ReferenceIdeal.Read
import proofs.«104676_j23922967838776_2_alg».proof.Proof.Final
import proofs.«104676_j23922967838776_2_alg».proof.Proof.PreReal
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of array operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the eight arguments, all finite, both programs end with the specification's array:
    the kernel block by block, the reference by its joined contractions, equal to the kernel's on real data. -/
theorem algebraic : Cert.algebraic_KernelIdeal_ReferenceIdeal := by
  intro m ρ m' ρ' hpre hagree
  refine ⟨fun c => Cert.Cgru.Final.Gm m c,
    Cert.Cgru.Blocks.run m ρ (fun c => Cert.Cgru.Final.Gm m c) (fun c t p q => Cert.Cgru.Final.point m c t p q), ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7⟩ := hagree c
  rw [(h c).1, Cert.ReferenceIdeal.Read.val_main_v79_eq, e0, e1, e2, e3, e4, e5, e6, e7]
  exact Cert.Cgru.Final.ref_final _ _ _ _ _ _ _ _ (Cert.Cgru.PreReal.real_arg0 m hpre c)
    (Cert.Cgru.PreReal.real_arg1 m hpre c) (Cert.Cgru.PreReal.real_arg3 m hpre c) (Cert.Cgru.PreReal.real_arg5 m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
